-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S2x2048x1024 .f32) (main_arg1 : FVec F S3072x1024 .f32) (main_arg2 : FVec F S1024x1024 .f32) (main_arg3 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S4096x1024 : Shape := ⟨2, ![4096, 1024]⟩
abbrev S1024x3072 : Shape := ⟨2, ![1024, 3072]⟩
abbrev S4096x3072 : Shape := ⟨2, ![4096, 3072]⟩
abbrev S2x2048x3x16x64 : Shape := ⟨5, ![2, 2048, 3, 16, 64]⟩
abbrev S3x2x16x2048x64 : Shape := ⟨5, ![3, 2, 16, 2048, 64]⟩
abbrev S1x2x16x2048x64 : Shape := ⟨5, ![1, 2, 16, 2048, 64]⟩
abbrev S2x16x2048x64 : Shape := ⟨4, ![2, 16, 2048, 64]⟩
abbrev S1x1x2048x64 : Shape := ⟨4, ![1, 1, 2048, 64]⟩
abbrev S2048x64 : Shape := ⟨2, ![2048, 64]⟩
abbrev S1x1x256x64 : Shape := ⟨4, ![1, 1, 256, 64]⟩
abbrev S256x64 : Shape := ⟨2, ![256, 64]⟩
abbrev S256x2048 : Shape := ⟨2, ![256, 2048]⟩
abbrev S256 : Shape := ⟨1, ![256]⟩
abbrev S256x1 : Shape := ⟨2, ![256, 1]⟩
abbrev S2x2048x16x64 : Shape := ⟨4, ![2, 2048, 16, 64]⟩
abbrev S1x1024 : Shape := ⟨2, ![1, 1024]⟩

abbrev nBuf : Space → Nat
  | .hbm => 25
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S4096x1024, .f32⟩
  | .hbm, ⟨5, _⟩ => ⟨S4096x1024, .bf16⟩
  | .hbm, ⟨6, _⟩ => ⟨S1024x3072, .f32⟩
  | .hbm, ⟨7, _⟩ => ⟨S1024x3072, .bf16⟩
  | .hbm, ⟨8, _⟩ => ⟨S4096x3072, .bf16⟩
  | .hbm, ⟨9, _⟩ => ⟨S2x2048x3x16x64, .bf16⟩
  | .hbm, ⟨10, _⟩ => ⟨S3x2x16x2048x64, .bf16⟩
  | .hbm, ⟨11, _⟩ => ⟨S1x2x16x2048x64, .bf16⟩
  | .hbm, ⟨12, _⟩ => ⟨S2x16x2048x64, .bf16⟩
  | .hbm, ⟨13, _⟩ => ⟨S1x2x16x2048x64, .bf16⟩
  | .hbm, ⟨14, _⟩ => ⟨S2x16x2048x64, .bf16⟩
  | .hbm, ⟨15, _⟩ => ⟨S1x2x16x2048x64, .bf16⟩
  | .hbm, ⟨16, _⟩ => ⟨S2x16x2048x64, .bf16⟩
  | .hbm, ⟨17, _⟩ => ⟨S2x16x2048x64, .bf16⟩
  | .hbm, ⟨18, _⟩ => ⟨S2x2048x16x64, .bf16⟩
  | .hbm, ⟨19, _⟩ => ⟨S4096x1024, .bf16⟩
  | .hbm, ⟨20, _⟩ => ⟨S1024x1024, .f32⟩
  | .hbm, ⟨21, _⟩ => ⟨S1024x1024, .bf16⟩
  | .hbm, ⟨22, _⟩ => ⟨S1x1024, .f32⟩
  | .hbm, ⟨23, _⟩ => ⟨S4096x1024, .f32⟩
  | .hbm, ⟨24, _⟩ => ⟨S2x2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1x2048x64, .bf16⟩
  | .local _ .vmem, ⟨7, _⟩ => ⟨S1x1x2048x64, .bf16⟩
  | .local _ .vmem, ⟨8, _⟩ => ⟨S1x1x2048x64, .bf16⟩
  | .local _ .vmem, ⟨9, _⟩ => ⟨S1x1x2048x64, .bf16⟩
  | .local _ .vmem, ⟨10, _⟩ => ⟨S1x1x2048x64, .bf16⟩
  | .local _ .vmem, ⟨11, _⟩ => ⟨S1x1x2048x64, .bf16⟩
  | .local _ .vmem, ⟨12, _⟩ => ⟨S1x1x2048x64, .bf16⟩
  | .local _ .vmem, ⟨13, _⟩ => ⟨S1x1x2048x64, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def k1_mult1 : BitVec 32 :=
  let c0_i32 : BitVec 32 := 0#32
  let c256_i32 : BitVec 32 := 256#32
  let v4 : BitVec 32 := Scalar.muli c0_i32 c256_i32
  v4
def k1_off1 (c0_i32 : BitVec 32) : Fin 4 → Nat :=
  let c0_7 : Index := 0#32
  let c0_8 : Index := 0#32
  let c256_i32 : BitVec 32 := 256#32
  let v4 : BitVec 32 := Scalar.muli c0_i32 c256_i32
  let v5 : BitVec 32 := v4
  let v6 : Index := Scalar.indexCast v5
  let c0_9 : Index := 0#32
  ![0, 0, v6.toNat, 0]
def k1_mult2 : BitVec 32 :=
  let c1_i32 : BitVec 32 := 1#32
  let c256_i32_17 : BitVec 32 := 256#32
  let v28 : BitVec 32 := Scalar.muli c1_i32 c256_i32_17
  v28
def k1_mult3 : BitVec 32 :=
  let c2_i32 : BitVec 32 := 2#32
  let c256_i32_29 : BitVec 32 := 256#32
  let v52 : BitVec 32 := Scalar.muli c2_i32 c256_i32_29
  v52
def k1_mult4 : BitVec 32 :=
  let c3_i32 : BitVec 32 := 3#32
  let c256_i32_41 : BitVec 32 := 256#32
  let v76 : BitVec 32 := Scalar.muli c3_i32 c256_i32_41
  v76
def k1_mult5 : BitVec 32 :=
  let c4_i32 : BitVec 32 := 4#32
  let c256_i32_53 : BitVec 32 := 256#32
  let v100 : BitVec 32 := Scalar.muli c4_i32 c256_i32_53
  v100
def k1_mult6 : BitVec 32 :=
  let c5_i32 : BitVec 32 := 5#32
  let c256_i32_65 : BitVec 32 := 256#32
  let v124 : BitVec 32 := Scalar.muli c5_i32 c256_i32_65
  v124
def k1_mult7 : BitVec 32 :=
  let c6_i32 : BitVec 32 := 6#32
  let c256_i32_77 : BitVec 32 := 256#32
  let v148 : BitVec 32 := Scalar.muli c6_i32 c256_i32_77
  v148
def k1_mult8 : BitVec 32 :=
  let c7_i32 : BitVec 32 := 7#32
  let c256_i32_89 : BitVec 32 := 256#32
  let v172 : BitVec 32 := Scalar.muli c7_i32 c256_i32_89
  v172
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x2048x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x2048x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S2x2048x1024_S4096x1024 : S2x2048x1024.ShapeCasts S4096x1024
  bitsLt_bf16_f32 : FTy.bits .bf16 < FTy.bits .f32
  transposes_S3072x1024_S1024x3072_1_0 : S3072x1024.Transposes [1, 0] S1024x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S4096x3072_S2x2048x3x16x64 : S4096x3072.ShapeCasts S2x2048x3x16x64
  transposes_S2x2048x3x16x64_S3x2x16x2048x64_2_0_3_1_4 : S2x2048x3x16x64.Transposes [2, 0, 3, 1, 4] S3x2x16x2048x64
  slices_S3x2x16x2048x64_S1x2x16x2048x64_0_0_0_0_0 : S3x2x16x2048x64.Slices ![0, 0, 0, 0, 0] S1x2x16x2048x64
  shapeCasts_S1x2x16x2048x64_S2x16x2048x64 : S1x2x16x2048x64.ShapeCasts S2x16x2048x64
  slices_S3x2x16x2048x64_S1x2x16x2048x64_1_0_0_0_0 : S3x2x16x2048x64.Slices ![1, 0, 0, 0, 0] S1x2x16x2048x64
  slices_S3x2x16x2048x64_S1x2x16x2048x64_2_0_0_0_0 : S3x2x16x2048x64.Slices ![2, 0, 0, 0, 0] S1x2x16x2048x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  h_S1x1x256x64 : 0 < S1x1x256x64.numel
  shapeCasts_S1x1x256x64_S256x64 : S1x1x256x64.ShapeCasts S256x64
  reduces_S256x2048_S256 : S256x2048.Reduces [1] S256
  shapeCasts_S256_S256x1 : S256.ShapeCasts S256x1
  broadcasts_S256x1_S256x2048 : S256x1.Broadcasts S256x2048
  shapeCasts_S256x64_S1x1x256x64 : S256x64.ShapeCasts S1x1x256x64
  transposes_S2x16x2048x64_S2x2048x16x64_0_2_1_3 : S2x16x2048x64.Transposes [0, 2, 1, 3] S2x2048x16x64
  shapeCasts_S2x2048x16x64_S4096x1024 : S2x2048x16x64.ShapeCasts S4096x1024
  transposes_S1024x1024_S1024x1024_1_0 : S1024x1024.Transposes [1, 0] S1024x1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S4096x1024_S2x2048x1024 : S4096x1024.ShapeCasts S2x2048x1024
  dot_S1024x1024_S1024x1024_S1024x1024_1_0_0_1_n_n_wf : DotDims.WF S1024x1024 S1024x1024 S1024x1024 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .bf16 = 32 ∨ (Rect.block (s := S1024x3072) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x3072.size a
  hwx0_2 : ∀ i : grid0.Coords, EltTy.bits .bf16 = 32 ∨ (Rect.block (s := S4096x3072) S1024x1024.size (cc0_transform_2 i) (hinb0_2 i)).WholeWords (EltTy.packing .bf16)
  hrank1 : 0 < grid1.rank
  k1_mult1_dvd : 256 ∣ k1_mult1.toNat
  k1_off1_inb : ∀ (r : Fin 8), ∀ a, (k1_off1 (BitVec.ofNat 32 r.val)) a + S1x1x256x64.size a ≤ S1x1x2048x64.size a
  k1_off1_packedbf16 : ∀ (r : Fin 8), (Rect.unit (s := S1x1x2048x64) (k1_off1 (BitVec.ofNat 32 r.val)) S1x1x256x64.size (k1_off1_inb r)).PackedRows (EltTy.packing .bf16)
  k1_mult2_dvd : 256 ∣ k1_mult2.toNat
  k1_mult3_dvd : 256 ∣ k1_mult3.toNat
  k1_mult4_dvd : 256 ∣ k1_mult4.toNat
  k1_mult5_dvd : 256 ∣ k1_mult5.toNat
  k1_mult6_dvd : 256 ∣ k1_mult6.toNat
  k1_mult7_dvd : 256 ∣ k1_mult7.toNat
  k1_mult8_dvd : 256 ∣ k1_mult8.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x2048x64.size a ≤ S2x16x2048x64.size a
  hwx1_0 : ∀ i : grid1.Coords, EltTy.bits .bf16 = 32 ∨ (Rect.block (s := S2x16x2048x64) S1x1x2048x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S2x16x2048x64.size a
  hwx1_1 : ∀ i : grid1.Coords, EltTy.bits .bf16 = 32 ∨ (Rect.block (s := S2x16x2048x64) S1x1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S2x16x2048x64.size a
  hwx1_2 : ∀ i : grid1.Coords, EltTy.bits .bf16 = 32 ∨ (Rect.block (s := S2x16x2048x64) S1x1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x2048x64.size a ≤ S2x16x2048x64.size a
  hwx1_3 : ∀ i : grid1.Coords, EltTy.bits .bf16 = 32 ∨ (Rect.block (s := S2x16x2048x64) S1x1x2048x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .bf16 = 32 ∨ (Rect.block (s := S4096x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .f32 = 32 ∨ (Rect.block (s := S4096x1024) S1024x1024.size (cc2_transform_3 i) (hinb2_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S1x1x2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x1x2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v15) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S2x2048x3072 : Shape := ⟨3, ![2, 2048, 3072]⟩
abbrev S2x2048x3x16x64 : Shape := ⟨5, ![2, 2048, 3, 16, 64]⟩
abbrev S3x2x16x2048x64 : Shape := ⟨5, ![3, 2, 16, 2048, 64]⟩
abbrev S1x2x16x2048x64 : Shape := ⟨5, ![1, 2, 16, 2048, 64]⟩
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S2x2048x3072, .f32⟩
  | .hbm, ⟨5, _⟩ => ⟨S2x2048x3x16x64, .f32⟩
  | .hbm, ⟨6, _⟩ => ⟨S3x2x16x2048x64, .f32⟩
  | .hbm, ⟨7, _⟩ => ⟨S1x2x16x2048x64, .f32⟩
  | .hbm, ⟨8, _⟩ => ⟨S2x16x2048x64, .f32⟩
  | .hbm, ⟨9, _⟩ => ⟨S_, .f32⟩
  | .hbm, ⟨10, _⟩ => ⟨S2x16x2048x64, .f32⟩
  | .hbm, ⟨11, _⟩ => ⟨S2x16x2048x64, .f32⟩
  | .hbm, ⟨12, _⟩ => ⟨S1x2x16x2048x64, .f32⟩
  | .hbm, ⟨13, _⟩ => ⟨S2x16x2048x64, .f32⟩
  | .hbm, ⟨14, _⟩ => ⟨S1x2x16x2048x64, .f32⟩
  | .hbm, ⟨15, _⟩ => ⟨S2x16x2048x64, .f32⟩
  | .hbm, ⟨16, _⟩ => ⟨S2x16x2048x2048, .f32⟩
  | .hbm, ⟨17, _⟩ => ⟨S_, .f32⟩
  | .hbm, ⟨18, _⟩ => ⟨S2x16x2048, .f32⟩
  | .hbm, ⟨19, _⟩ => ⟨S_, .f32⟩
  | .hbm, ⟨20, _⟩ => ⟨S2x16x2048, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x64, .f32⟩
  | .hbm, ⟨32, _⟩ => ⟨S2x2048x16x64, .f32⟩
  | .hbm, ⟨33, _⟩ => ⟨S2x2048x1024, .f32⟩
  | .hbm, ⟨34, _⟩ => ⟨S2x2048x1024, .f32⟩
  | .hbm, ⟨35, _⟩ => ⟨S1x1x1024, .f32⟩
  | .hbm, ⟨36, _⟩ => ⟨S2x2048x1024, .f32⟩
  | .hbm, ⟨37, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S2x2048x3072_S2x2048x3x16x64 : S2x2048x3072.ShapeCasts S2x2048x3x16x64
  transposes_S2x2048x3x16x64_S3x2x16x2048x64_2_0_3_1_4 : S2x2048x3x16x64.Transposes [2, 0, 3, 1, 4] S3x2x16x2048x64
  slices_S3x2x16x2048x64_S1x2x16x2048x64_0_0_0_0_0 : S3x2x16x2048x64.Slices ![0, 0, 0, 0, 0] S1x2x16x2048x64
  shapeCasts_S1x2x16x2048x64_S2x16x2048x64 : S1x2x16x2048x64.ShapeCasts S2x16x2048x64
  bcast_S_S2x16x2048x64 : S_.BroadcastsInDim S2x16x2048x64 (![] : Fin 0 → Fin S2x16x2048x64.rank)
  slices_S3x2x16x2048x64_S1x2x16x2048x64_1_0_0_0_0 : S3x2x16x2048x64.Slices ![1, 0, 0, 0, 0] S1x2x16x2048x64
  slices_S3x2x16x2048x64_S1x2x16x2048x64_2_0_0_0_0 : S3x2x16x2048x64.Slices ![2, 0, 0, 0, 0] S1x2x16x2048x64
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.Spec.lean ====
/-
  The mathematics the three kernel regions compute, as functions of the arrays they read, index by index over the
  extended reals.  A projection is a plain matrix product (a sum over the 1024 input features); the attention of one
  batch b and head h at query row n is the softmax over the 2048 keys of the scaled scores, applied to the values:

    score n j  = sum over d of (q n d * eighth) * k j d
    top n      = the maximum over j of score n j, folded from the floor (minus infinity)
    weight n j = exp (score n j - top n)
    mass n     = sum over j of weight n j
    attend n d = sum over j of (weight n j / mass n) * v j d

  The two constants (one eighth, minus infinity) are parameters here: each program supplies its own literal word for
  them, and the words are compared once, where the two programs meet.
-/
import Idealize.ShloMosaic.PureOps.Ideal
import Idealize.ShloMosaic.Lib.ValueIdx

noncomputable section

namespace Cert.Attn

open Idealize.ShloMosaic Idealize.ShloMosaic.ValueIdx

/-- A matrix product read at one entry: row r of the left matrix against column o of the right one, summed over
    the K shared features. -/
def proj (M K N : Nat) (a : (⟨2, ![M, K]⟩ : Shape).Idx → EReal) (w : (⟨2, ![K, N]⟩ : Shape).Idx → EReal)
    (r : Fin M) (o : Fin N) : EReal :=
  ∑ k : Fin K, a (ix2 r k) * w (ix2 k o)

/-- A [2, 16, 2048, 64] array of extended reals: batch, head, position, feature within the head. -/
abbrev Heads := (⟨4, ![2, 16, 2048, 64]⟩ : Shape).Idx → EReal

/-- The scaled score of query row n against key row j: the query entry times one eighth, times the key entry, summed
    over the 64 features of the head. -/
def score (eighth : EReal) (q k : Heads) (b : Fin 2) (h : Fin 16) (n j : Fin 2048) : EReal :=
  ∑ d : Fin 64, (q (ix4 b h n d) * eighth) * k (ix4 b h j d)

/-- The largest score of a query row, folded from the floor. -/
def top (eighth floor : EReal) (q k : Heads) (b : Fin 2) (h : Fin 16) (n : Fin 2048) : EReal :=
  (Finset.univ : Finset (Fin 2048)).fold max floor (fun j => score eighth q k b h n j)

/-- The unnormalised softmax weight of key j for query row n. -/
def weight (eighth floor : EReal) (q k : Heads) (b : Fin 2) (h : Fin 16) (n j : Fin 2048) : EReal :=
  Ideal.exp (score eighth q k b h n j - top eighth floor q k b h n)

/-- The total weight of a query row. -/
def mass (eighth floor : EReal) (q k : Heads) (b : Fin 2) (h : Fin 16) (n : Fin 2048) : EReal :=
  ∑ j : Fin 2048, weight eighth floor q k b h n j

/-- The attention output: the normalised weights applied to the value rows. -/
def attend (eighth floor : EReal) (q k v : Heads) (b : Fin 2) (h : Fin 16) (n : Fin 2048) (d : Fin 64) : EReal :=
  ∑ j : Fin 2048, Ideal.div (weight eighth floor q k b h n j) (mass eighth floor q k b h n) * v (ix4 b h j d)

end Cert.Attn

end
-- ==== Proof.Region0.lean ====
/-
  The first projection, read off the arrays it leaves behind.

  The region multiplies a [4096, 1024] matrix of activations by a [1024, 3072] matrix of weights.  Its grid has
  4 x 3 points; at the point (i, j) it holds rows 1024 i .. 1024 i + 1023 of the activations (all 1024 features) and
  columns 1024 j .. 1024 j + 1023 of the weights (all 1024 features), multiplies the two blocks into a zero
  accumulator, and writes the product back as block (i, j) of the [4096, 3072] result.  Over the extended reals the
  change of float format on the way out is the identity, so entry (p, q) of what a point writes is

      sum over k of (left block) p k * (right block) k q,

  and since the whole shared axis sits inside one block, that is entry (1024 i + p, 1024 j + q) of the full matrix
  product.  The twelve blocks tile the result, so the result array IS the matrix product, entry by entry.

  The steps: one entry of a block product as a sum over the 1024 shared features; the stored value at an entry;
  where each window's block sits at a grid point (decided once over the twelve points); the two input blocks as
  pieces of the arrays the region found; what a point writes back as its block of one whole-array function; the
  blocks cover the array; the array after the region.
-/
import proofs.«149181_j24799141167461_2_alg».proof.Proof.Gen.KernelIdeal.Frame
import proofs.«149181_j24799141167461_2_alg».proof.Proof.Spec
import Idealize.ShloMosaic.Lib.ValueIdx
import Idealize.ShloMosaic.Lib.Pipeline.Value
import Idealize.ShloMosaic.PureOps.Ideal.Laws
noncomputable section
namespace Cert.KernelIdeal.Bridge
open Idealize.ShloMosaic Idealize.ShloMosaic.TcCoe Idealize.SL.Sem Idealize.ShloMosaic.ValueIdx
open Cert.KernelIdeal Cert.KernelIdeal.Gen
variable (V : (c : Dev nD) → (b : Ref sig .tc) → Buf (Elt Ideal) ((c : Thread nD τ).loc b))

namespace InputProjection

/-- The left operand's index at output entry i and shared feature q: row i 0, ... -/
theorem lhs_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- ... column q. -/
theorem lhs_col (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- The right operand's index at output entry i and shared feature q: row q, ... -/
theorem rhs_row (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- ... column i 1. -/
theorem rhs_col (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- One entry of the product of two 1024 x 1024 blocks accumulated from zero: row p of the left block against
    column q of the right block, summed over the 1024 shared features. -/
theorem block_product_entry (x y : FVec Ideal S1024x1024 .bf16) (p q : Fin 1024) :
    (matmul dot_S1024x1024_S1024x1024_S1024x1024_1_0_0_1_n_n none x y
        (constant (F := Ideal) S1024x1024 .f32 0x00000000#32) : FVec Ideal S1024x1024 .f32) (ix2 p q)
      = ∑ k : Fin 1024, x (ix2 p k) * y (ix2 k q) := by
  refine (Ideal.matmul_constant_zero_apply dot_S1024x1024_S1024x1024_S1024x1024_1_0_0_1_n_n none x y (ix2 p q)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k :=
    funext fun a => Fin.ext (by
      match a with
      | ⟨0, _⟩ => exact lhs_row _ _
      | ⟨1, _⟩ => exact (lhs_col _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q :=
    funext fun a => Fin.ext (by
      match a with
      | ⟨0, _⟩ => exact (rhs_row _ _).trans hk
      | ⟨1, _⟩ => exact rhs_col _ _)
  rw [el, er]

/-- The body's stored value at an entry: the change of float format and the two casts to the same shape are the
    identity on extended reals, so it is the block product. -/
theorem stored_entry (x y : Vec Ideal S1024x1024 .bf16) (p q : Fin 1024) :
    k0_pay1 (F := Ideal) x y (ix2 p q) = ∑ k : Fin 1024, x (ix2 p k) * y (ix2 k q) := by
  unfold k0_pay1
  simp only [shapeCast_self]
  exact block_product_entry x y p q

/-- The body's stored value at any entry of the block. -/
theorem stored_at (x y : Vec Ideal S1024x1024 .bf16) (j : S1024x1024.Idx) :
    k0_pay1 (F := Ideal) x y j = ∑ k : Fin 1024, x (ix2 (j 0) k) * y (ix2 k (j 1)) := by
  obtain ⟨p, q, rfl⟩ : ∃ (p q : Fin 1024), j = ix2 p q := ⟨j 0, j 1, eq_ix2 j⟩
  exact stored_entry x y p q

/-- The two zero offsets of a whole-block access. -/
theorem zero_offsets : (![0, 0] : Fin 2 → Nat) = fun _ => 0 := funext fun a => by fin_cases a <;> rfl

/-- The projection as one function of an index of the whole [4096, 3072] array: row i 0 of the left matrix against
    column i 1 of the right one. -/
def projArray (a : S4096x1024.Idx → EReal) (w : S1024x3072.Idx → EReal) : S4096x3072.Idx → EReal :=
  fun i => Cert.Attn.proj 4096 1024 3072 a w (i 0) (i 1)

/-- Where the three windows' blocks sit at a grid point, decided over the twelve points: the left window follows
    the output's row block and stays in column block 0, the right window stays in row block 0 and follows the
    output's column block, and the output's block indices are within the 4 x 3 blocks of the array. -/
theorem block_indices : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 3 ∧ win0_2.index t (1 : Fin 2) ≤ 2 :=
  (by decide +kernel : ∀ t : Fin grid0.N, _)

/-- Every one of the 4 x 3 blocks of the output is some grid point's. -/
theorem every_block_visited : ∀ (q0 : Fin 4) (q1 : Fin 3), ∃ t : Fin cfg0.N, win0_2.index t = ![q0.val, q1.val] :=
  (by decide +kernel : ∀ (q0 : Fin 4) (q1 : Fin 3), ∃ t : Fin grid0.N, win0_2.index t = ![q0.val, q1.val])

/-- The left window's block at a point is the rows of the left matrix under the output's row block, all 1024
    features. -/
theorem left_block_at (c : Dev nD) (t : Fin cfg0.N) (x : S1024x1024.Idx) (i : S4096x1024.Idx)
    (h0 : (i 0).val = win0_2.index t (0 : Fin 2) * 1024 + (x 0).val) (h1 : (i 1).val = (x 1).val) :
    (iblk0 V c 0 t : Vec Ideal S1024x1024 .bf16) x = (V c main_v1 : S4096x1024.Idx → EReal) i := by
  obtain ⟨e0, e1, -, -, -, -⟩ := block_indices t
  unfold iblk0
  rw [View.read_apply]
  show V c main_v1 _ = V c main_v1 _
  refine congrArg (V c main_v1) (funext fun a => Fin.ext ?_)
  match a with
  | ⟨0, _⟩ => show win0_0.index t (0 : Fin 2) * 1024 + 1 * (x 0).val = (i 0).val; omega
  | ⟨1, _⟩ => show win0_0.index t (1 : Fin 2) * 1024 + 1 * (x 1).val = (i 1).val; omega

/-- The right window's block at a point is all 1024 features of the right matrix, the columns under the output's
    column block. -/
theorem right_block_at (c : Dev nD) (t : Fin cfg0.N) (x : S1024x1024.Idx) (i : S1024x3072.Idx)
    (h0 : (i 0).val = (x 0).val) (h1 : (i 1).val = win0_2.index t (1 : Fin 2) * 1024 + (x 1).val) :
    (iblk0 V c 1 t : Vec Ideal S1024x1024 .bf16) x = (V c main_v3 : S1024x3072.Idx → EReal) i := by
  obtain ⟨-, -, e2, e3, -, -⟩ := block_indices t
  unfold iblk0
  rw [View.read_apply]
  show V c main_v3 _ = V c main_v3 _
  refine congrArg (V c main_v3) (funext fun a => Fin.ext ?_)
  match a with
  | ⟨0, _⟩ => show win0_1.index t (0 : Fin 2) * 1024 + 1 * (x 0).val = (i 0).val; omega
  | ⟨1, _⟩ => show win0_1.index t (1 : Fin 2) * 1024 + 1 * (x 1).val = (i 1).val; omega

/-- What a grid point writes back is its block of the projection of the arrays the region found. -/
theorem written_back (c : Dev nD) (t : Fin cfg0.N) :
    (dat0 (F := Ideal) V c).flushed 2 t
      = ((cfg0.win 2).blk t).view.read (Elt Ideal) (projArray (V c main_v1) (V c main_v3)) := by
  show (cfg0.win 2).cut (grid0.coords t) ((dat0 (F := Ideal) V c).after 2 t) = _
  rw [after0_2]
  unfold out0_2
  rw [View.canon_unit_zero zero_offsets]
  simp only [View.ld_unit_zero (S := S1024x1024) zero_offsets]
  funext j
  rw [View.read_apply]
  refine (stored_at (iblk0 V c 0 t) (iblk0 V c 1 t) ((cfg0.win 2).xinj (grid0.coords t) j)).trans ?_
  unfold projArray Cert.Attn.proj
  refine Finset.sum_congr rfl fun k _ => ?_
  refine congrArg₂ (· * ·) (left_block_at V c t _ _ ?_ ?_) (right_block_at V c t _ _ ?_ ?_)
  · show win0_2.index t (0 : Fin 2) * 1024 + 1 * (j 0).val = win0_2.index t (0 : Fin 2) * 1024 + (j 0).val; omega
  · rfl
  · rfl
  · show win0_2.index t (1 : Fin 2) * 1024 + 1 * (j 1).val = win0_2.index t (1 : Fin 2) * 1024 + (j 1).val; omega

/-- An index of the array is in a point's block iff each coordinate is in the block's range on its axis. -/
theorem in_block_iff (t : Fin cfg0.N) (i : S4096x3072.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v4).slice (win0_2.rect t)).set ↔ _
  rw [View.set_slice_whole, Rect.mem_set_unit]
  exact Iff.rfl

/-- The blocks cover the array: entry (r, o) lies in the block of row block r / 1024 and column block o / 1024. -/
theorem covered (i : S4096x3072.Idx) :
    ∃ t : Fin cfg0.N, (cfg0.win 2).flush t = true ∧ i ∈ ((cfg0.win 2).blk t).view.set := by
  have hi0 : (i 0).val < 4096 := (i 0).isLt
  have hi1 : (i 1).val < 3072 := (i 1).isLt
  obtain ⟨t, ht⟩ := every_block_visited ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [in_block_iff]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

end InputProjection

open InputProjection in
/-- The array the first projection leaves behind is the matrix product of the two arrays it read. -/
theorem arr0 (c : Dev nD) (r : Fin 4096) (o : Fin 3072) :
    ((dat0 (F := Ideal) V c).arrAt 2 cfg0.N : S4096x3072.Idx → EReal) (ix2 r o)
      = Cert.Attn.proj 4096 1024 3072 (V c main_v1) (V c main_v3) r o :=
  congrFun ((dat0 (F := Ideal) V c).arrAt_eq_of_cover 2 (projArray (V c main_v1) (V c main_v3))
    (fun t _ => written_back V c t) covered) (ix2 r o)

end Cert.KernelIdeal.Bridge
end
-- ==== Proof.Region1a.lean ====
import proofs.«149181_j24799141167461_2_alg».proof.Proof.Gen.KernelIdeal.Frame
import proofs.«149181_j24799141167461_2_alg».proof.Proof.Spec
import Idealize.ShloMosaic.Lib.ValueIdx
import Idealize.ShloMosaic.Lib.ValueLayout
import Idealize.ShloMosaic.Lib.Pipeline.Value
import Idealize.ShloMosaic.PureOps.Ideal.Laws
noncomputable section
namespace Cert.KernelIdeal.Bridge.Region1
open Idealize.ShloMosaic Idealize.ShloMosaic.TcCoe Idealize.SL.Sem Idealize.ShloMosaic.ValueIdx
open Cert.KernelIdeal Cert.KernelIdeal.Gen

/-! ## The two matrix products of a tile, read at one entry

Each product has one contracted axis; off it, an operand's coordinate is the output's. -/

theorem keysLhs_row (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide),
    dif_pos (show (0 : Fin S256x64.rank) ∈ dot_S256x64_S2048x64_S256x2048_1_1_0_0_n_n.lhsNonContracting by decide)]
  rfl
theorem keysRhs_row (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide),
    dif_pos (show (0 : Fin S2048x64.rank) ∈ dot_S256x64_S2048x64_S256x2048_1_1_0_0_n_n.rhsNonContracting by decide)]
  rfl
theorem valuesLhs_row (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide),
    dif_pos (show (0 : Fin S256x2048.rank) ∈ dot_S256x2048_S2048x64_S256x64_1_0_0_1_n_n.lhsNonContracting by decide)]
  rfl
theorem valuesRhs_col (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide),
    dif_pos (show (1 : Fin S2048x64.rank) ∈ dot_S256x2048_S2048x64_S256x64_1_0_0_1_n_n.rhsNonContracting by decide)]
  rfl

/-- A 256 x 64 tile against the 2048 x 64 key block, contracting the 64 features of both: entry (r, j) is the sum over
    the features of the tile's row r against the key row j. -/
theorem dotKeys_apply (a : FVec Ideal S256x64 .bf16) (kk : FVec Ideal S2048x64 .bf16) (r : Fin 256) (j : Fin 2048) :
    (matmul dot_S256x64_S2048x64_S256x2048_1_1_0_0_n_n none a kk (constant (F := Ideal) S256x2048 .f32 0x00000000#32)
      : FVec Ideal S256x2048 .f32) (ix2 r j) = ∑ d : Fin 64, a (ix2 r d) * kk (ix2 j d) := by
  simp only [matmul]
  rw [Ideal.matmul_constant_zero_apply,
    ← Equiv.sum_comp (contrEquiv1 dot_S256x64_S2048x64_S256x2048_1_1_0_0_n_n 64 rfl rfl).symm]
  refine Finset.sum_congr rfl fun k _ => ?_
  have hk := contrEquiv1_symm_val dot_S256x64_S2048x64_S256x2048_1_1_0_0_n_n 64 rfl rfl k
  have el : dot_S256x64_S2048x64_S256x2048_1_1_0_0_n_n.lhsIdx (ix2 r j)
      ((contrEquiv1 dot_S256x64_S2048x64_S256x2048_1_1_0_0_n_n 64 rfl rfl).symm k) = ix2 r k :=
    funext fun ax => Fin.ext (by
      match ax with
      | ⟨0, _⟩ => exact keysLhs_row _ _
      | ⟨1, _⟩ => exact (dot_S256x64_S2048x64_S256x2048_1_1_0_0_n_n.lhsIdx_val_of_single rfl _ _).trans hk)
  have er : dot_S256x64_S2048x64_S256x2048_1_1_0_0_n_n.rhsIdx (ix2 r j)
      ((contrEquiv1 dot_S256x64_S2048x64_S256x2048_1_1_0_0_n_n 64 rfl rfl).symm k) = ix2 j k :=
    funext fun ax => Fin.ext (by
      match ax with
      | ⟨0, _⟩ => exact keysRhs_row _ _
      | ⟨1, _⟩ => exact (dot_S256x64_S2048x64_S256x2048_1_1_0_0_n_n.rhsIdx_val_of_single rfl _ _).trans hk)
  rw [el, er]

/-- A 256 x 2048 tile of weights against the 2048 x 64 value block, contracting the 2048 keys: entry (r, d) is the sum
    over the keys of the weight of key j times the value row j at feature d. -/
theorem dotValues_apply (p : FVec Ideal S256x2048 .bf16) (vv : FVec Ideal S2048x64 .bf16) (r : Fin 256) (d : Fin 64) :
    (matmul dot_S256x2048_S2048x64_S256x64_1_0_0_1_n_n none p vv (constant (F := Ideal) S256x64 .f32 0x00000000#32)
      : FVec Ideal S256x64 .f32) (ix2 r d) = ∑ j : Fin 2048, p (ix2 r j) * vv (ix2 j d) := by
  simp only [matmul]
  rw [Ideal.matmul_constant_zero_apply,
    ← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 r d)
      ((contrEquiv1 dot_S256x2048_S2048x64_S256x64_1_0_0_1_n_n 2048 rfl rfl).symm k) = ix2 r k :=
    funext fun ax => Fin.ext (by
      match ax with
      | ⟨0, _⟩ => exact valuesLhs_row _ _
      | ⟨1, _⟩ => exact (dot_S256x2048_S2048x64_S256x64_1_0_0_1_n_n.lhsIdx_val_of_single rfl _ _).trans hk)
  have er : dot_S256x2048_S2048x64_S256x64_1_0_0_1_n_n.rhsIdx (ix2 r d)
      ((contrEquiv1 dot_S256x2048_S2048x64_S256x64_1_0_0_1_n_n 2048 rfl rfl).symm k) = ix2 k d :=
    funext fun ax => Fin.ext (by
      match ax with
      | ⟨0, _⟩ => exact (dot_S256x2048_S2048x64_S256x64_1_0_0_1_n_n.rhsIdx_val_of_single rfl _ _).trans hk
      | ⟨1, _⟩ => exact valuesRhs_col _ _)
  rw [el, er]

/-! ## The two reductions along the keys, read at a row -/

/-- The sum along the 2048 keys of a 256 x 2048 tile, at row r. -/
theorem rowSum_apply (src : FVec Ideal S256x2048 .f32) (r : Fin 256) :
    (multiReduction (F := Ideal) .add [1] S256 src 0x00000000#32 reduces_S256x2048_S256 (.inl rfl) rfl) (ix1 r)
      = ∑ j : Fin 2048, src (ix2 r j) := by
  refine (Ideal.multiReduction_add_single src 0x00000000#32 reduces_S256x2048_S256 (.inl rfl) rfl (ix1 r)).trans ?_
  refine Finset.sum_congr rfl fun j _ => congrArg src ?_
  funext ax
  match ax with
  | ⟨0, _⟩ => rfl
  | ⟨1, _⟩ => rfl

/-- The maximum along the 2048 keys of a 256 x 2048 tile, at row r, folded from minus infinity. -/
theorem rowMax_apply (src : FVec Ideal S256x2048 .f32) (r : Fin 256) :
    (multiReduction (F := Ideal) .maximumf [1] S256 src 0xFF800000#32 reduces_S256x2048_S256 (.inl rfl) rfl) (ix1 r)
      = (Finset.univ : Finset (Fin 2048)).fold max (Ideal.ofBits .f32 0xFF800000#32) (fun j => src (ix2 r j)) := by
  refine (Ideal.multiReduction_maximumf_single src 0xFF800000#32 reduces_S256x2048_S256 (.inl rfl) rfl (ix1 r)).trans ?_
  refine congrArg (fun f => (Finset.univ : Finset (Fin 2048)).fold max (Ideal.ofBits .f32 0xFF800000#32) f) ?_
  funext j
  refine congrArg src ?_
  funext ax
  match ax with
  | ⟨0, _⟩ => rfl
  | ⟨1, _⟩ => rfl

/-! ## The changes of layout inside a tile -/

/-- A column of 256 row values viewed as a 256 x 1 matrix. -/
theorem column_apply {α : Type} (m : S256.Idx → α) (r : Fin 256) (u : Fin 1) :
    shapeCast S256x1 m shapeCasts_S256_S256x1 (ix2 r u) = m (ix1 r) :=
  shapeCast_apply m shapeCasts_S256_S256x1 _ _ (by
    have hu : u.val = 0 := by omega
    rw [Shape.rowMajor_val_one, Shape.rowMajor_val_two]
    show r.val = r.val * 1 + u.val
    omega)

/-- The 256 x 1 column repeated along the 2048 keys. -/
theorem spread_apply {α : Type} (c : S256x1.Idx → α) (r : Fin 256) (j : Fin 2048) :
    broadcastTo S256x2048 c broadcasts_S256x1_S256x2048 (ix2 r j) = c (ix2 r (0 : Fin 1)) := by
  refine broadcastTo_apply c broadcasts_S256x1_S256x2048 (ix2 r j) (ix2 r (0 : Fin 1)) fun ax => ?_
  match ax with
  | ⟨0, _⟩ => rfl
  | ⟨1, _⟩ => rfl

/-- A [1, 1, 256, 64] block viewed as a 256 x 64 matrix. -/
theorem tileIn_apply {α : Type} (q : S1x1x256x64.Idx → α) (r : Fin 256) (d : Fin 64) :
    shapeCast S256x64 q shapeCasts_S1x1x256x64_S256x64 (ix2 r d) = q (ix4 (0 : Fin 1) (0 : Fin 1) r d) :=
  shapeCast_apply q shapeCasts_S1x1x256x64_S256x64 _ _ (by
    rw [Shape.rowMajor_val_four, Shape.rowMajor_val_two]
    show ((0 * 1 + 0) * 256 + r.val) * 64 + d.val = r.val * 64 + d.val
    omega)

/-- A 256 x 64 matrix viewed as a [1, 1, 256, 64] block. -/
theorem tileOut_apply {α : Type} (o : S256x64.Idx → α) (u v : Fin 1) (r : Fin 256) (d : Fin 64) :
    shapeCast S1x1x256x64 o shapeCasts_S256x64_S1x1x256x64 (ix4 u v r d) = o (ix2 r d) :=
  shapeCast_apply o shapeCasts_S256x64_S1x1x256x64 _ _ (by
    have hu : u.val = 0 := by omega
    have hv : v.val = 0 := by omega
    rw [Shape.rowMajor_val_four, Shape.rowMajor_val_two]
    show r.val * 64 + d.val = ((u.val * 1 + v.val) * 256 + r.val) * 64 + d.val
    omega)

/-- A [1, 1, 2048, 64] block viewed as a 2048 x 64 matrix. -/
theorem slabIn_apply {α : Type} (x : S1x1x2048x64.Idx → α) (j : Fin 2048) (d : Fin 64) :
    shapeCast S2048x64 x shapeCasts_S1x1x2048x64_S2048x64 (ix2 j d) = x (ix4 (0 : Fin 1) (0 : Fin 1) j d) :=
  shapeCast_apply x shapeCasts_S1x1x2048x64_S2048x64 _ _ (by
    rw [Shape.rowMajor_val_four, Shape.rowMajor_val_two]
    show ((0 * 1 + 0) * 2048 + j.val) * 64 + d.val = j.val * 64 + d.val
    omega)

/-! ## One query row of attention, and a tile's arithmetic -/

/-- The attention of ONE query row against 2048 key rows and value rows of 64 features: the scaled scores, their
    maximum folded from the floor, the exponentials of the differences, their total, and the normalised weights
    applied to the values. -/
def rowAttn (eighth floor : EReal) (qrow : Fin 64 → EReal) (K Vv : Fin 2048 → Fin 64 → EReal) (d : Fin 64) : EReal :=
  ∑ j : Fin 2048,
    Ideal.div
      (Ideal.exp ((∑ d' : Fin 64, (qrow d' * eighth) * K j d')
        - (Finset.univ : Finset (Fin 2048)).fold max floor (fun j' => ∑ d' : Fin 64, (qrow d' * eighth) * K j' d')))
      (∑ j'' : Fin 2048, Ideal.exp ((∑ d' : Fin 64, (qrow d' * eighth) * K j'' d')
        - (Finset.univ : Finset (Fin 2048)).fold max floor (fun j' => ∑ d' : Fin 64, (qrow d' * eighth) * K j' d')))
      * Vv j d

/-- The specification's attention at (b, h, n, d) is that row function of row n of the queries and of the key and value
    slabs of (b, h). -/
theorem attend_eq_rowAttn (eighth floor : EReal) (q k v : Cert.Attn.Heads) (b : Fin 2) (h : Fin 16) (n : Fin 2048) (d : Fin 64) :
    Cert.Attn.attend eighth floor q k v b h n d
      = rowAttn eighth floor (fun d' => q (ix4 b h n d')) (fun j d' => k (ix4 b h j d')) (fun j d' => v (ix4 b h j d')) d := rfl

/-- The scaled scores of a query tile: the tile times one eighth against the keys. -/
theorem scores_apply (q : Vec Ideal S1x1x256x64 .bf16) (kk : FVec Ideal S2048x64 .bf16) (r : Fin 256) (j : Fin 2048) :
    (matmul dot_S256x64_S2048x64_S256x2048_1_1_0_0_n_n none
        (mulf (shapeCast S256x64 q shapeCasts_S1x1x256x64_S256x64 : FVec Ideal S256x64 .bf16)
          (broadcast S256x64 (Scalar.ofBits (F := Ideal) .bf16 0x3E00#16)))
        kk (constant (F := Ideal) S256x2048 .f32 0x00000000#32) : FVec Ideal S256x2048 .f32) (ix2 r j)
      = ∑ d' : Fin 64, (q (ix4 (0 : Fin 1) (0 : Fin 1) r d') * Ideal.ofBits .bf16 0x3E00#16) * kk (ix2 j d') := by
  refine (dotKeys_apply _ kk r j).trans ?_
  refine Finset.sum_congr rfl fun d' _ => ?_
  refine congrArg (· * kk (ix2 j d')) ?_
  show shapeCast S256x64 q shapeCasts_S1x1x256x64_S256x64 (ix2 r d') * Ideal.ofBits .bf16 0x3E00#16 = _
  rw [tileIn_apply]

/-- The exponentials of a tile of scores less each row's maximum. -/
theorem numer_apply (sc : FVec Ideal S256x2048 .f32) (r : Fin 256) (j : Fin 2048) :
    (exp (subf sc (broadcastTo S256x2048
        (shapeCast S256x1 (multiReduction (F := Ideal) .maximumf [1] S256 sc 0xFF800000#32 reduces_S256x2048_S256 (.inl rfl) rfl)
          shapeCasts_S256_S256x1) broadcasts_S256x1_S256x2048)) : FVec Ideal S256x2048 .f32) (ix2 r j)
      = Ideal.exp (sc (ix2 r j)
          - (Finset.univ : Finset (Fin 2048)).fold max (Ideal.ofBits .f32 0xFF800000#32) (fun j' => sc (ix2 r j'))) := by
  show Ideal.exp (sc (ix2 r j) - broadcastTo S256x2048 _ broadcasts_S256x1_S256x2048 (ix2 r j)) = _
  rw [spread_apply, column_apply, rowMax_apply]

/-- A tile of weights divided by each row's total. -/
theorem normal_apply (e : FVec Ideal S256x2048 .f32) (r : Fin 256) (j : Fin 2048) :
    (truncf .bf16 (divf e (broadcastTo S256x2048
        (shapeCast S256x1 (multiReduction (F := Ideal) .add [1] S256 e 0x00000000#32 reduces_S256x2048_S256 (.inl rfl) rfl)
          shapeCasts_S256_S256x1) broadcasts_S256x1_S256x2048)) bitsLt_bf16_f32 : FVec Ideal S256x2048 .bf16) (ix2 r j)
      = Ideal.div (e (ix2 r j)) (∑ j' : Fin 2048, e (ix2 r j')) := by
  show Ideal.div (e (ix2 r j)) (broadcastTo S256x2048 _ broadcasts_S256x1_S256x2048 (ix2 r j)) = _
  rw [spread_apply, column_apply, rowSum_apply]

/-- The unnormalised weight of key j for row r of a query tile: the exponential of its scaled score less the row's
    largest score. -/
theorem weight_apply (q : Vec Ideal S1x1x256x64 .bf16) (kk : FVec Ideal S2048x64 .bf16) (r : Fin 256) (j : Fin 2048) :
    (exp (subf
        (matmul dot_S256x64_S2048x64_S256x2048_1_1_0_0_n_n none
          (mulf (shapeCast S256x64 q shapeCasts_S1x1x256x64_S256x64 : FVec Ideal S256x64 .bf16)
            (broadcast S256x64 (Scalar.ofBits (F := Ideal) .bf16 0x3E00#16)))
          kk (constant (F := Ideal) S256x2048 .f32 0x00000000#32) : FVec Ideal S256x2048 .f32)
        (broadcastTo S256x2048
          (shapeCast S256x1 (multiReduction (F := Ideal) .maximumf [1] S256
            (matmul dot_S256x64_S2048x64_S256x2048_1_1_0_0_n_n none
              (mulf (shapeCast S256x64 q shapeCasts_S1x1x256x64_S256x64 : FVec Ideal S256x64 .bf16)
                (broadcast S256x64 (Scalar.ofBits (F := Ideal) .bf16 0x3E00#16)))
              kk (constant (F := Ideal) S256x2048 .f32 0x00000000#32) : FVec Ideal S256x2048 .f32)
            0xFF800000#32 reduces_S256x2048_S256 (.inl rfl) rfl)
            shapeCasts_S256_S256x1) broadcasts_S256x1_S256x2048)) : FVec Ideal S256x2048 .f32) (ix2 r j)
      = Ideal.exp ((∑ d' : Fin 64, (q (ix4 (0 : Fin 1) (0 : Fin 1) r d') * Ideal.ofBits .bf16 0x3E00#16) * kk (ix2 j d'))
          - (Finset.univ : Finset (Fin 2048)).fold max (Ideal.ofBits .f32 0xFF800000#32)
              (fun j' => ∑ d' : Fin 64, (q (ix4 (0 : Fin 1) (0 : Fin 1) r d') * Ideal.ofBits .bf16 0x3E00#16) * kk (ix2 j' d'))) := by
  refine (numer_apply _ r j).trans ?_
  rw [scores_apply q kk r j]
  exact congrArg (fun t => Ideal.exp (_ - (Finset.univ : Finset (Fin 2048)).fold max (Ideal.ofBits .f32 0xFF800000#32) t))
    (funext fun j' => scores_apply q kk r j')

/-- THE TILE: what the body computes from a 256-row query tile, the key matrix and the value matrix, at row r and
    feature d, is the row attention of the tile's row r. -/
theorem tile_apply (kk vv : FVec Ideal S2048x64 .bf16) (q : Vec Ideal S1x1x256x64 .bf16) (u v : Fin 1) (r : Fin 256) (d : Fin 64) :
    k1_pay5 (F := Ideal) kk vv q (ix4 u v r d)
      = rowAttn (Ideal.ofBits .bf16 0x3E00#16) (Ideal.ofBits .f32 0xFF800000#32)
          (fun d' => q (ix4 (0 : Fin 1) (0 : Fin 1) r d')) (fun j d' => kk (ix2 j d')) (fun j d' => vv (ix2 j d')) d := by
  unfold k1_pay5
  refine (tileOut_apply _ u v r d).trans ?_
  refine (dotValues_apply _ vv r d).trans ?_
  unfold rowAttn
  refine Finset.sum_congr rfl fun j _ => ?_
  refine congrArg (· * vv (ix2 j d)) ?_
  refine (normal_apply _ r j).trans ?_
  exact congrArg₂ Ideal.div (weight_apply q kk r j) (Finset.sum_congr rfl fun j'' _ => weight_apply q kk r j'')

/-! ## The eight tiles are one computation

The body repeats the tile's statements eight times, and the printed arithmetic cuts the copies at different places
(the keys and values cast once before the first tile; a tile's last cast, or its first product, printed apart).
Each cut is the same term once its parts are put together. -/

theorem tile0_eq (x1 x2 : Vec Ideal S1x1x2048x64 .bf16) (q : Vec Ideal S1x1x256x64 .bf16) :
    k1_pay4 (F := Ideal) x1 x2 q = k1_pay5 (k1_pay2 x1) (k1_pay3 x2) q := rfl
theorem tile2_eq (kk vv : FVec Ideal S2048x64 .bf16) (q : Vec Ideal S1x1x256x64 .bf16) :
    k1_pay7 (F := Ideal) (k1_pay6 kk vv q) = k1_pay5 kk vv q := rfl
theorem tile3_eq (kk vv : FVec Ideal S2048x64 .bf16) (q : Vec Ideal S1x1x256x64 .bf16) :
    k1_pay8 (F := Ideal) kk vv q = k1_pay5 kk vv q := rfl
theorem tile4_eq (kk vv : FVec Ideal S2048x64 .bf16) (q : Vec Ideal S1x1x256x64 .bf16) :
    k1_pay10 (F := Ideal) kk vv (k1_pay9 q) (constant (F := Ideal) S256x2048 .f32 0x00000000#32) = k1_pay5 kk vv q := rfl
theorem tile5_eq (kk vv : FVec Ideal S2048x64 .bf16) (q : Vec Ideal S1x1x256x64 .bf16) :
    k1_pay12 (F := Ideal) (k1_pay11 kk vv q) = k1_pay5 kk vv q := rfl
theorem tile6_eq (kk vv : FVec Ideal S2048x64 .bf16) (q : Vec Ideal S1x1x256x64 .bf16) :
    k1_pay13 (F := Ideal) kk vv q = k1_pay5 kk vv q := rfl
theorem tile7_eq (kk vv : FVec Ideal S2048x64 .bf16) (q : Vec Ideal S1x1x256x64 .bf16) :
    k1_pay1 (F := Ideal) vv (k1_pay14 kk q) = k1_pay5 kk vv q := rfl

end Cert.KernelIdeal.Bridge.Region1
end
-- ==== Proof.Region1b.lean ====
import proofs.«149181_j24799141167461_2_alg».proof.Proof.Region1a
import Idealize.ShloMosaic.Lib.Tactic
noncomputable section
namespace Cert.KernelIdeal.Bridge.Region1
open Idealize.ShloMosaic Idealize.ShloMosaic.TcCoe Idealize.SL.Sem Idealize.ShloMosaic.ValueIdx
open Cert.KernelIdeal Cert.KernelIdeal.Gen

/-! ## What the body leaves in one (batch, head) slab of the output -/

theorem zeros4 : (![0, 0, 0, 0] : Fin 4 → Nat) = fun _ => 0 := funext fun a => by fin_cases a <;> rfl

/-- Equal rows, keys, values and features give equal row attentions. -/
theorem rowAttn_congr {eighth floor : EReal} {q q' : Fin 64 → EReal} {K K' Vv Vv' : Fin 2048 → Fin 64 → EReal} {d d' : Fin 64}
    (hq : q = q') (hK : K = K') (hV : Vv = Vv') (hd : d = d') :
    rowAttn eighth floor q K Vv d = rowAttn eighth floor q' K' Vv' d' := by
  subst hq hK hV hd; rfl

/-- The attention of a whole [1, 1, 2048, 64] slab: at row n and feature d, the row attention of the query slab's
    row n against the key slab and the value slab. -/
def slabAttn (x0 x1 x2 : Vec Ideal S1x1x2048x64 .bf16) : Vec Ideal S1x1x2048x64 .bf16 := fun y =>
  rowAttn (Ideal.ofBits .bf16 0x3E00#16) (Ideal.ofBits .f32 0xFF800000#32)
    (fun d' => x0 (ix4 (0 : Fin 1) (0 : Fin 1) (y 2) d')) (fun j d' => x1 (ix4 (0 : Fin 1) (0 : Fin 1) j d'))
    (fun j d' => x2 (ix4 (0 : Fin 1) (0 : Fin 1) j d')) (y 3)

/-- ONE STORED TILE: the tile computed from rows o .. o + 255 of the query slab, at its own index x, is the slab's
    attention at the place the tile is stored, row o + x₂. -/
theorem piece_apply (a2 : Memref sig .tc .vmem S1x1x2048x64 .bf16) (h2 : a2.IsWhole)
    (a3 : Memref sig .tc .vmem S1x1x2048x64 .bf16) (h3 : a3.IsWhole)
    (a4 : Memref sig .tc .vmem S1x1x2048x64 .bf16) (h4 : a4.IsWhole)
    (x0 x1 x2 : Vec Ideal S1x1x2048x64 .bf16) (o : Nat)
    (inb : ∀ a, (![0, 0, o, 0] : Fin 4 → Nat) a + S1x1x256x64.size a ≤ S1x1x2048x64.size a)
    (x : S1x1x256x64.Idx) :
    k1_pay5 (F := Ideal)
        (k1_pay2 (View.readAt (Elt Ideal) a3.view
          (Rect.unit (s := S1x1x2048x64) ![0, 0, 0, 0] S1x1x2048x64.size inb_S1x1x2048x64_S1x1x2048x64_0_0_0_0).toLoadRect (h3.unread x1)))
        (k1_pay3 (View.readAt (Elt Ideal) a4.view
          (Rect.unit (s := S1x1x2048x64) ![0, 0, 0, 0] S1x1x2048x64.size inb_S1x1x2048x64_S1x1x2048x64_0_0_0_0).toLoadRect (h4.unread x2)))
        (View.readAt (Elt Ideal) a2.view (Rect.unit (s := S1x1x2048x64) ![0, 0, o, 0] S1x1x256x64.size inb).toLoadRect (h2.unread x0)) x
      = slabAttn x0 x1 x2 ((Rect.unit (s := S1x1x2048x64) ![0, 0, o, 0] S1x1x256x64.size inb).emb x) := by
  obtain ⟨u, v, r, d, rfl⟩ : ∃ (u v : Fin 1) (r : Fin 256) (d : Fin 64), x = ix4 u v r d := ⟨x 0, x 1, x 2, x 3, eq_ix4 x⟩
  simp only [View.readAt_eq_ld, h2.read_unread, h3.read_unread, h4.read_unread, View.ld_unit_zero (S := S1x1x2048x64) zeros4]
  refine (tile_apply _ _ _ u v r d).trans ?_
  unfold slabAttn
  refine rowAttn_congr (funext fun d' => ?_) (funext fun j => funext fun d' => ?_) (funext fun j => funext fun d' => ?_) ?_
  · show x0 ((Rect.unit (s := S1x1x2048x64) ![0, 0, o, 0] S1x1x256x64.size inb).toLoadRect.idx (ix4 (0 : Fin 1) (0 : Fin 1) r d')) = _
    refine congrArg x0 (funext fun a => Fin.ext ?_)
    match a with
    | ⟨0, _⟩ => rfl
    | ⟨1, _⟩ => rfl
    | ⟨2, _⟩ => rfl
    | ⟨3, _⟩ => show 0 + 1 * d'.val = d'.val; omega
  · exact slabIn_apply x1 j d'
  · exact slabIn_apply x2 j d'
  · exact Fin.ext (show d.val = 0 + 1 * d.val by omega)

/-- A property of each of eight listed things holds of every member of their list. -/
theorem forall_mem_eight {α : Type _} {P : α → Prop} (a7 a6 a5 a4 a3 a2 a1 a0 : α)
    (h7 : P a7) (h6 : P a6) (h5 : P a5) (h4 : P a4) (h3 : P a3) (h2 : P a2) (h1 : P a1) (h0 : P a0) :
    ∀ p ∈ [a7, a6, a5, a4, a3, a2, a1, a0], P p := by
  intro p hp
  simp only [List.mem_cons, List.not_mem_nil, or_false] at hp
  rcases hp with rfl | rfl | rfl | rfl | rfl | rfl | rfl | rfl <;> assumption

/-- THE SLAB: the eight tiles the body stores, rows 0 .. 255 up to rows 1792 .. 2047, cover the output's slab, and each
    is the slab's attention on its rows; so the slab ends holding its attention. -/
theorem out_eq (c : Dev nD) (i : grid1.Coords)
    (a2 : Memref sig .tc .vmem S1x1x2048x64 .bf16) (h2 : a2.IsWhole) (a3 : Memref sig .tc .vmem S1x1x2048x64 .bf16) (h3 : a3.IsWhole)
    (a4 : Memref sig .tc .vmem S1x1x2048x64 .bf16) (h4 : a4.IsWhole) (a5 : Memref sig .tc .vmem S1x1x2048x64 .bf16) (h5 : a5.IsWhole)
    (x0 x1 x2 : Vec Ideal S1x1x2048x64 .bf16) :
    out1_A_3 (F := Ideal) c i a2 h2 a3 h3 a4 h4 a5 h5 x0 x1 x2 = slabAttn x0 x1 x2 := by
  unfold out1_A_3
  rw [View.read_writes_eq_canon _ _ _ (cover1_A_3 c i a2 h2 a3 h3 a4 h4 a5 h5 x0 x1 x2)]
  funext y
  refine View.canon_apply_of_pieces (slabAttn x0 x1 x2) _ ?_ y (cover1_A_3 c i a2 h2 a3 h3 a4 h4 a5 h5 x0 x1 x2 y)
  unfold kernelRun1_A
  dsimp only
  sl_unfold_words
  refine forall_mem_eight _ _ _ _ _ _ _ _ ?_ ?_ ?_ ?_ ?_ ?_ ?_ ?_
  · intro x; exact (congrFun (tile7_eq _ _ _) x).trans (piece_apply a2 h2 a3 h3 a4 h4 x0 x1 x2 1792 _ x)
  · intro x; exact (congrFun (tile6_eq _ _ _) x).trans (piece_apply a2 h2 a3 h3 a4 h4 x0 x1 x2 1536 _ x)
  · intro x; exact (congrFun (tile5_eq _ _ _) x).trans (piece_apply a2 h2 a3 h3 a4 h4 x0 x1 x2 1280 _ x)
  · intro x; exact (congrFun (tile4_eq _ _ _) x).trans (piece_apply a2 h2 a3 h3 a4 h4 x0 x1 x2 1024 _ x)
  · intro x; exact (congrFun (tile3_eq _ _ _) x).trans (piece_apply a2 h2 a3 h3 a4 h4 x0 x1 x2 768 _ x)
  · intro x; exact (congrFun (tile2_eq _ _ _) x).trans (piece_apply a2 h2 a3 h3 a4 h4 x0 x1 x2 512 _ x)
  · intro x; exact piece_apply a2 h2 a3 h3 a4 h4 x0 x1 x2 256 _ x
  · intro x; exact (congrFun (tile0_eq _ _ _) x).trans (piece_apply a2 h2 a3 h3 a4 h4 x0 x1 x2 0 _ x)

end Cert.KernelIdeal.Bridge.Region1
end
-- ==== Proof.Region1.lean ====
import proofs.«149181_j24799141167461_2_alg».proof.Proof.Gen.KernelIdeal.Frame
import proofs.«149181_j24799141167461_2_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«149181_j24799141167461_2_alg».proof.Proof.Region1b
noncomputable section
namespace Cert.KernelIdeal.Bridge
open Idealize.ShloMosaic Idealize.ShloMosaic.TcCoe Idealize.SL.Sem Idealize.ShloMosaic.ValueIdx
open Cert.KernelIdeal Cert.KernelIdeal.Gen
variable (V : (c : Dev nD) → (b : Ref sig .tc) → Buf (Elt Ideal) ((c : Thread nD τ).loc b))

namespace Region1

/-! ## From the slabs to the array

Grid point t = (batch, head) works on slab (batch, head, :, :) of each of the four arrays: every window's block index is
(batch, head, 0, 0), and the 32 points reach every (batch, head). -/

/-- The four windows move together, and never along the rows or the features. -/
theorem idx_facts : ∀ t : Fin cfg1.N,
    win1_0.index t (0 : Fin 4) = win1_3.index t (0 : Fin 4) ∧ win1_0.index t (1 : Fin 4) = win1_3.index t (1 : Fin 4)
    ∧ win1_0.index t (2 : Fin 4) = 0 ∧ win1_0.index t (3 : Fin 4) = 0
    ∧ win1_1.index t (0 : Fin 4) = win1_3.index t (0 : Fin 4) ∧ win1_1.index t (1 : Fin 4) = win1_3.index t (1 : Fin 4)
    ∧ win1_1.index t (2 : Fin 4) = 0 ∧ win1_1.index t (3 : Fin 4) = 0
    ∧ win1_2.index t (0 : Fin 4) = win1_3.index t (0 : Fin 4) ∧ win1_2.index t (1 : Fin 4) = win1_3.index t (1 : Fin 4)
    ∧ win1_2.index t (2 : Fin 4) = 0 ∧ win1_2.index t (3 : Fin 4) = 0
    ∧ win1_3.index t (0 : Fin 4) ≤ 1 ∧ win1_3.index t (1 : Fin 4) ≤ 15
    ∧ win1_3.index t (2 : Fin 4) = 0 ∧ win1_3.index t (3 : Fin 4) = 0 :=
  (by decide +kernel : ∀ t : Fin grid1.N, _)

/-- Every (batch, head) is some point's. -/
theorem idx_onto : ∀ (q0 : Fin 2) (q1 : Fin 16), ∃ t : Fin cfg1.N, win1_3.index t = ![q0.val, q1.val, 0, 0] :=
  (by decide +kernel : ∀ (q0 : Fin 2) (q1 : Fin 16), ∃ t : Fin grid1.N, win1_3.index t = ![q0.val, q1.val, 0, 0])

/-- The attention of the whole arrays, as contents of the output array. -/
def wholeAttn (c : Dev nD) : Buf (Elt Ideal) ((c : Thread nD τ).loc main_v13) := fun i =>
  Cert.Attn.attend (Ideal.ofBits .bf16 0x3E00#16) (Ideal.ofBits .f32 0xFF800000#32)
    (V c main_v8) (V c main_v10) (V c main_v12) (i 0) (i 1) (i 2) (i 3)

/-- A slab's attention is the arrays' attention at the slab's place: when the three input slabs are the slabs
    (b, h, :, :) of three arrays, the slab's value at row y₂, feature y₃ is the arrays' at (b, h, y₂, y₃). -/
theorem slab_point (Q K Vv : Cert.Attn.Heads) (x0 x1 x2 : Vec Ideal S1x1x2048x64 .bf16) (y : S1x1x2048x64.Idx)
    (b : Fin 2) (h : Fin 16) (n : Fin 2048) (d : Fin 64)
    (h0 : ∀ (n' : Fin 2048) (d' : Fin 64), x0 (ix4 (0 : Fin 1) (0 : Fin 1) n' d') = Q (ix4 b h n' d'))
    (h1 : ∀ (n' : Fin 2048) (d' : Fin 64), x1 (ix4 (0 : Fin 1) (0 : Fin 1) n' d') = K (ix4 b h n' d'))
    (h2 : ∀ (n' : Fin 2048) (d' : Fin 64), x2 (ix4 (0 : Fin 1) (0 : Fin 1) n' d') = Vv (ix4 b h n' d'))
    (hn : n.val = (y 2).val) (hd : d.val = (y 3).val) :
    slabAttn x0 x1 x2 y
      = Cert.Attn.attend (Ideal.ofBits .bf16 0x3E00#16) (Ideal.ofBits .f32 0xFF800000#32) Q K Vv b h n d := by
  rw [attend_eq_rowAttn]
  unfold slabAttn
  have e2 : (y 2 : Fin 2048) = n := Fin.ext hn.symm
  have e3 : (y 3 : Fin 64) = d := Fin.ext hd.symm
  refine rowAttn_congr (funext fun d' => ?_) (funext fun j => funext fun d' => h1 j d')
    (funext fun j => funext fun d' => h2 j d') e3
  exact (congrArg (fun m : Fin 2048 => x0 (ix4 (0 : Fin 1) (0 : Fin 1) m d')) e2).trans (h0 n d')

/-- WHAT POINT t WRITES BACK is its slab of the arrays' attention. -/
theorem flushed_eq (c : Dev nD) (t : Fin cfg1.N) :
    (dat1 (F := Ideal) V c).flushed 3 t = ((cfg1.win 3).blk t).view.read (Elt Ideal) (wholeAttn V c) := by
  show (cfg1.win 3).cut (grid1.coords t) ((dat1 (F := Ideal) V c).after 3 t) = _
  rw [after1_3]
  unfold outsAt1
  rw [out_eq c (grid1.coords t) (ms1_0 t) (hs1_0 t) (ms1_1 t) (hs1_1 t) (ms1_2 t) (hs1_2 t) (ms1_3 t) (hs1_3 t)
    (iblk1 V c 0 t) (iblk1 V c 1 t) (iblk1 V c 2 t)]
  obtain ⟨a0, a1, a2, a3, b0, b1, b2, b3, c0, c1, c2, c3, d0, d1, d2, d3⟩ := idx_facts t
  funext j
  show slabAttn (iblk1 V c 0 t) (iblk1 V c 1 t) (iblk1 V c 2 t) j = wholeAttn V c (((cfg1.win 3).blk t).view.emb j)
  have hj0 : (j 0).val < 1 := (j 0).isLt
  have hj1 : (j 1).val < 1 := (j 1).isLt
  refine slab_point (V c main_v8) (V c main_v10) (V c main_v12) (iblk1 V c 0 t) (iblk1 V c 1 t) (iblk1 V c 2 t) j
    ((((cfg1.win 3).blk t).view.emb j) 0) ((((cfg1.win 3).blk t).view.emb j) 1)
    ((((cfg1.win 3).blk t).view.emb j) 2) ((((cfg1.win 3).blk t).view.emb j) 3)
    (fun n d => ?_) (fun n d => ?_) (fun n d => ?_) ?_ ?_
  · show V c main_v8 (((cfg1.win 0).blk t).view.emb (ix4 (0 : Fin 1) (0 : Fin 1) n d)) = V c main_v8 _
    refine congrArg (V c main_v8) (funext fun a => Fin.ext ?_)
    match a with
    | ⟨0, _⟩ => show win1_0.index t (0 : Fin 4) * 1 + 1 * 0 = win1_3.index t (0 : Fin 4) * 1 + 1 * (j 0).val; omega
    | ⟨1, _⟩ => show win1_0.index t (1 : Fin 4) * 1 + 1 * 0 = win1_3.index t (1 : Fin 4) * 1 + 1 * (j 1).val; omega
    | ⟨2, _⟩ => show win1_0.index t (2 : Fin 4) * 2048 + 1 * n.val = n.val; omega
    | ⟨3, _⟩ => show win1_0.index t (3 : Fin 4) * 64 + 1 * d.val = d.val; omega
  · show V c main_v10 (((cfg1.win 1).blk t).view.emb (ix4 (0 : Fin 1) (0 : Fin 1) n d)) = V c main_v10 _
    refine congrArg (V c main_v10) (funext fun a => Fin.ext ?_)
    match a with
    | ⟨0, _⟩ => show win1_1.index t (0 : Fin 4) * 1 + 1 * 0 = win1_3.index t (0 : Fin 4) * 1 + 1 * (j 0).val; omega
    | ⟨1, _⟩ => show win1_1.index t (1 : Fin 4) * 1 + 1 * 0 = win1_3.index t (1 : Fin 4) * 1 + 1 * (j 1).val; omega
    | ⟨2, _⟩ => show win1_1.index t (2 : Fin 4) * 2048 + 1 * n.val = n.val; omega
    | ⟨3, _⟩ => show win1_1.index t (3 : Fin 4) * 64 + 1 * d.val = d.val; omega
  · show V c main_v12 (((cfg1.win 2).blk t).view.emb (ix4 (0 : Fin 1) (0 : Fin 1) n d)) = V c main_v12 _
    refine congrArg (V c main_v12) (funext fun a => Fin.ext ?_)
    match a with
    | ⟨0, _⟩ => show win1_2.index t (0 : Fin 4) * 1 + 1 * 0 = win1_3.index t (0 : Fin 4) * 1 + 1 * (j 0).val; omega
    | ⟨1, _⟩ => show win1_2.index t (1 : Fin 4) * 1 + 1 * 0 = win1_3.index t (1 : Fin 4) * 1 + 1 * (j 1).val; omega
    | ⟨2, _⟩ => show win1_2.index t (2 : Fin 4) * 2048 + 1 * n.val = n.val; omega
    | ⟨3, _⟩ => show win1_2.index t (3 : Fin 4) * 64 + 1 * d.val = d.val; omega
  · show win1_3.index t (2 : Fin 4) * 2048 + 1 * (j 2).val = (j 2).val; omega
  · show win1_3.index t (3 : Fin 4) * 64 + 1 * (j 3).val = (j 3).val; omega

/-- An index of the array is in point t's block iff each coordinate is in the block's range on its axis. -/
theorem mem_blk (t : Fin cfg1.N) (i : S2x16x2048x64.Idx) :
    i ∈ ((cfg1.win 3).blk t).view.set ↔ ∀ a : Fin 4, win1_3.index t a * S1x1x2048x64.size a ≤ (i a).val
      ∧ (i a).val < win1_3.index t a * S1x1x2048x64.size a + S1x1x2048x64.size a := by
  show i ∈ ((View.whole main_v13).slice (win1_3.rect t)).set ↔ _
  rw [View.set_slice_whole, Rect.mem_set_unit]
  exact Iff.rfl

/-- Every index of the array is in the block of the point of its (batch, head). -/
theorem covered (i : S2x16x2048x64.Idx) :
    ∃ t : Fin cfg1.N, (cfg1.win 3).flush t = true ∧ i ∈ ((cfg1.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩
  have q0 : win1_3.index t (0 : Fin 4) = (i 0).val := congrFun ht 0
  have q1 : win1_3.index t (1 : Fin 4) = (i 1).val := congrFun ht 1
  have q2 : win1_3.index t (2 : Fin 4) = 0 := congrFun ht 2
  have q3 : win1_3.index t (3 : Fin 4) = 0 := congrFun ht 3
  refine ⟨t, flush1_3 t, ?_⟩
  rw [mem_blk]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 2048 ≤ (i 2).val ∧ (i 2).val < win1_3.index t (2 : Fin 4) * 2048 + 2048; omega
  | ⟨3, _⟩ => show win1_3.index t (3 : Fin 4) * 64 ≤ (i 3).val ∧ (i 3).val < win1_3.index t (3 : Fin 4) * 64 + 64; omega

/-- So the output array ends holding the attention of the three input arrays. -/
theorem final (c : Dev nD) : (dat1 (F := Ideal) V c).arrAt 3 cfg1.N = wholeAttn V c :=
  (dat1 (F := Ideal) V c).arrAt_eq_of_cover 3 (wholeAttn V c) (fun t _ => flushed_eq V c t) covered

end Region1

/-- The array region 1 leaves behind, read at (b, h, n, d), is the attention of batch b and head h at query row n and
    feature d, of the query, key and value arrays the region finds. -/
theorem arr1 (c : Dev nD) (b : Fin 2) (h : Fin 16) (n : Fin 2048) (d : Fin 64) :
    ((dat1 (F := Ideal) V c).arrAt 3 cfg1.N : S2x16x2048x64.Idx → EReal) (ix4 b h n d)
      = Cert.Attn.attend (Ideal.ofBits .bf16 0x3E00#16) (Ideal.ofBits .f32 0xFF800000#32)
          (V c main_v8) (V c main_v10) (V c main_v12) b h n d :=
  congrFun (Region1.final V c) (ix4 b h n d)

end Cert.KernelIdeal.Bridge
end
-- ==== Proof.Region2.lean ====
/-
  The last projection, read off the arrays it leaves behind.

  The region multiplies a [4096, 1024] matrix of attended activations by a [1024, 1024] matrix of weights and adds a
  bias row.  Its grid has 4 points; at the point i it holds rows 1024 i .. 1024 i + 1023 of the activations (all
  1024 features), the whole weight matrix and the whole [1, 1024] bias row, multiplies the two blocks into a zero
  accumulator, adds the bias row repeated down the 1024 rows, and writes the sum back as row block i of the
  [4096, 1024] result.  So entry (p, q) of what a point writes is

      (sum over k of (left block) p k * (weights) k q) + bias q,

  and since the whole shared axis sits inside one block, that is entry (1024 i + p, q) of the full matrix product
  plus the bias of column q.  The four row blocks tile the result, so the result array IS the matrix product plus
  the bias row, entry by entry.

  The steps: one entry of a block product as a sum over the 1024 shared features; the repeated row at an entry;
  the stored value at an entry; where each window's block sits at a grid point (decided once over the four
  points); the three input blocks as pieces of the arrays the region found; what a point writes back as its block
  of one whole-array function; the blocks cover the array; the array after the region.
-/
import proofs.«149181_j24799141167461_2_alg».proof.Proof.Gen.KernelIdeal.Frame
import proofs.«149181_j24799141167461_2_alg».proof.Proof.Spec
import Idealize.ShloMosaic.Lib.ValueIdx
import Idealize.ShloMosaic.Lib.Pipeline.Value
import Idealize.ShloMosaic.PureOps.Ideal.Laws
noncomputable section
namespace Cert.KernelIdeal.Bridge
open Idealize.ShloMosaic Idealize.ShloMosaic.TcCoe Idealize.SL.Sem Idealize.ShloMosaic.ValueIdx
open Cert.KernelIdeal Cert.KernelIdeal.Gen
variable (V : (c : Dev nD) → (b : Ref sig .tc) → Buf (Elt Ideal) ((c : Thread nD τ).loc b))

namespace OutputProjection

/-- The left operand's index at output entry i and shared feature q: row i 0, ... -/
theorem lhs_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- ... column q. -/
theorem lhs_col (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- The right operand's index at output entry i and shared feature q: row q, ... -/
theorem rhs_row (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- ... column i 1. -/
theorem rhs_col (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- One entry of the product of two 1024 x 1024 blocks accumulated from zero: row p of the left block against
    column q of the right block, summed over the 1024 shared features. -/
theorem block_product_entry (x y : FVec Ideal S1024x1024 .bf16) (p q : Fin 1024) :
    (matmul dot_S1024x1024_S1024x1024_S1024x1024_1_0_0_1_n_n none x y
        (constant (F := Ideal) S1024x1024 .f32 0x00000000#32) : FVec Ideal S1024x1024 .f32) (ix2 p q)
      = ∑ k : Fin 1024, x (ix2 p k) * y (ix2 k q) := by
  refine (Ideal.matmul_constant_zero_apply dot_S1024x1024_S1024x1024_S1024x1024_1_0_0_1_n_n none x y (ix2 p q)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k :=
    funext fun a => Fin.ext (by
      match a with
      | ⟨0, _⟩ => exact lhs_row _ _
      | ⟨1, _⟩ => exact (lhs_col _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q :=
    funext fun a => Fin.ext (by
      match a with
      | ⟨0, _⟩ => exact (rhs_row _ _).trans hk
      | ⟨1, _⟩ => exact rhs_col _ _)
  rw [el, er]

/-- A [1, 1024] row repeated down the 1024 rows of a block: entry (p, q) is the row's entry q. -/
theorem bias_row_entry (b : FVec Ideal S1x1024 .f32) (p q : Fin 1024) :
    (broadcastTo S1024x1024 b broadcasts_S1x1024_S1024x1024 : FVec Ideal S1024x1024 .f32) (ix2 p q)
      = b (ix2 (0 : Fin 1) q) := by
  refine broadcastTo_apply b broadcasts_S1x1024_S1024x1024 (ix2 p q) (ix2 (0 : Fin 1) q) fun a => ?_
  match a with
  | ⟨0, _⟩ => rfl
  | ⟨1, _⟩ => rfl

/-- The body's stored value at an entry: the casts to the same shape are the identity, so it is the block product
    plus the bias row's entry of that column. -/
theorem stored_entry (x y : Vec Ideal S1024x1024 .bf16) (b : Vec Ideal S1x1024 .f32) (p q : Fin 1024) :
    k2_pay1 (F := Ideal) x y b (ix2 p q)
      = (∑ k : Fin 1024, x (ix2 p k) * y (ix2 k q)) + b (ix2 (0 : Fin 1) q) := by
  unfold k2_pay1
  simp only [shapeCast_self]
  refine (addf_apply _ _ (ix2 p q)).trans ?_
  exact congrArg₂ (· + ·) (block_product_entry x y p q) (bias_row_entry b p q)

/-- The body's stored value at any entry of the block. -/
theorem stored_at (x y : Vec Ideal S1024x1024 .bf16) (b : Vec Ideal S1x1024 .f32) (j : S1024x1024.Idx) :
    k2_pay1 (F := Ideal) x y b j
      = (∑ k : Fin 1024, x (ix2 (j 0) k) * y (ix2 k (j 1))) + b (ix2 (0 : Fin 1) (j 1)) := by
  obtain ⟨p, q, rfl⟩ : ∃ (p q : Fin 1024), j = ix2 p q := ⟨j 0, j 1, eq_ix2 j⟩
  exact stored_entry x y b p q

/-- The two zero offsets of a whole-block access. -/
theorem zero_offsets : (![0, 0] : Fin 2 → Nat) = fun _ => 0 := funext fun a => by fin_cases a <;> rfl

/-- The projection with its bias as one function of an index of the whole [4096, 1024] array: row i 0 of the left
    matrix against column i 1 of the right one, plus the bias of column i 1. -/
def projBiasArray (a : S4096x1024.Idx → EReal) (w : S1024x1024.Idx → EReal) (b : S1x1024.Idx → EReal) :
    S4096x1024.Idx → EReal :=
  fun i => Cert.Attn.proj 4096 1024 1024 a w (i 0) (i 1) + b (ix2 (0 : Fin 1) (i 1))

/-- Where the four windows' blocks sit at a grid point, decided over the four points: the left window follows the
    output's row block, the weights and the bias row are always their whole arrays, and the output's blocks are
    the four row blocks of the array. -/
theorem block_indices : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 3 :=
  (by decide +kernel : ∀ t : Fin grid2.N, _)

/-- Every one of the four row blocks of the output is some grid point's. -/
theorem every_block_visited : ∀ (q0 : Fin 4), ∃ t : Fin cfg2.N, win2_3.index t = ![q0.val, 0] :=
  (by decide +kernel : ∀ (q0 : Fin 4), ∃ t : Fin grid2.N, win2_3.index t = ![q0.val, 0])

/-- The left window's block at a point is the rows of the left matrix under the output's row block, all 1024
    features. -/
theorem left_block_at (c : Dev nD) (t : Fin cfg2.N) (x : S1024x1024.Idx) (i : S4096x1024.Idx)
    (h0 : (i 0).val = win2_3.index t (0 : Fin 2) * 1024 + (x 0).val) (h1 : (i 1).val = (x 1).val) :
    (iblk2 V c 0 t : Vec Ideal S1024x1024 .bf16) x = (V c main_v15 : S4096x1024.Idx → EReal) i := by
  obtain ⟨e0, e1, -, -, -, -, -, -⟩ := block_indices t
  unfold iblk2
  rw [View.read_apply]
  show V c main_v15 _ = V c main_v15 _
  refine congrArg (V c main_v15) (funext fun a => Fin.ext ?_)
  match a with
  | ⟨0, _⟩ => show win2_0.index t (0 : Fin 2) * 1024 + 1 * (x 0).val = (i 0).val; omega
  | ⟨1, _⟩ => show win2_0.index t (1 : Fin 2) * 1024 + 1 * (x 1).val = (i 1).val; omega

/-- The weights window's block is the whole weight matrix at every point. -/
theorem weights_block_at (c : Dev nD) (t : Fin cfg2.N) (x : S1024x1024.Idx) (i : S1024x1024.Idx)
    (h0 : (i 0).val = (x 0).val) (h1 : (i 1).val = (x 1).val) :
    (iblk2 V c 1 t : Vec Ideal S1024x1024 .bf16) x = (V c main_v17 : S1024x1024.Idx → EReal) i := by
  obtain ⟨-, -, e2, e3, -, -, -, -⟩ := block_indices t
  unfold iblk2
  rw [View.read_apply]
  show V c main_v17 _ = V c main_v17 _
  refine congrArg (V c main_v17) (funext fun a => Fin.ext ?_)
  match a with
  | ⟨0, _⟩ => show win2_1.index t (0 : Fin 2) * 1024 + 1 * (x 0).val = (i 0).val; omega
  | ⟨1, _⟩ => show win2_1.index t (1 : Fin 2) * 1024 + 1 * (x 1).val = (i 1).val; omega

/-- The bias window's block is the whole bias row at every point. -/
theorem bias_block_at (c : Dev nD) (t : Fin cfg2.N) (x : S1x1024.Idx) (i : S1x1024.Idx)
    (h0 : (i 0).val = (x 0).val) (h1 : (i 1).val = (x 1).val) :
    (iblk2 V c 2 t : Vec Ideal S1x1024 .f32) x = (V c main_v18 : S1x1024.Idx → EReal) i := by
  obtain ⟨-, -, -, -, e4, e5, -, -⟩ := block_indices t
  unfold iblk2
  rw [View.read_apply]
  show V c main_v18 _ = V c main_v18 _
  refine congrArg (V c main_v18) (funext fun a => Fin.ext ?_)
  match a with
  | ⟨0, _⟩ => show win2_2.index t (0 : Fin 2) * 1 + 1 * (x 0).val = (i 0).val; omega
  | ⟨1, _⟩ => show win2_2.index t (1 : Fin 2) * 1024 + 1 * (x 1).val = (i 1).val; omega

/-- What a grid point writes back is its block of the projection with bias of the arrays the region found. -/
theorem written_back (c : Dev nD) (t : Fin cfg2.N) :
    (dat2 (F := Ideal) V c).flushed 3 t
      = ((cfg2.win 3).blk t).view.read (Elt Ideal)
          (projBiasArray (V c main_v15) (V c main_v17) (V c main_v18)) := by
  show (cfg2.win 3).cut (grid2.coords t) ((dat2 (F := Ideal) V c).after 3 t) = _
  rw [after2_3]
  unfold out2_3
  rw [View.canon_unit_zero zero_offsets]
  simp only [View.ld_unit_zero (S := S1024x1024) zero_offsets, View.ld_unit_zero (S := S1x1024) zero_offsets]
  obtain ⟨-, -, -, -, -, -, e6, -⟩ := block_indices t
  funext j
  rw [View.read_apply]
  refine (stored_at (iblk2 V c 0 t) (iblk2 V c 1 t) (iblk2 V c 2 t) ((cfg2.win 3).xinj (grid2.coords t) j)).trans ?_
  unfold projBiasArray Cert.Attn.proj
  refine congrArg₂ (· + ·) (Finset.sum_congr rfl fun k _ => ?_) (bias_block_at V c t _ _ ?_ ?_)
  · refine congrArg₂ (· * ·) (left_block_at V c t _ _ ?_ ?_) (weights_block_at V c t _ _ ?_ ?_)
    · show win2_3.index t (0 : Fin 2) * 1024 + 1 * (j 0).val = win2_3.index t (0 : Fin 2) * 1024 + (j 0).val; omega
    · rfl
    · rfl
    · show win2_3.index t (1 : Fin 2) * 1024 + 1 * (j 1).val = (j 1).val; omega
  · rfl
  · show win2_3.index t (1 : Fin 2) * 1024 + 1 * (j 1).val = (j 1).val; omega

/-- An index of the array is in a point's block iff each coordinate is in the block's range on its axis. -/
theorem in_block_iff (t : Fin cfg2.N) (i : S4096x1024.Idx) :
    i ∈ ((cfg2.win 3).blk t).view.set ↔ ∀ a : Fin 2, win2_3.index t a * S1024x1024.size a ≤ (i a).val
      ∧ (i a).val < win2_3.index t a * S1024x1024.size a + S1024x1024.size a := by
  show i ∈ ((View.whole main_v19).slice (win2_3.rect t)).set ↔ _
  rw [View.set_slice_whole, Rect.mem_set_unit]
  exact Iff.rfl

/-- The blocks cover the array: entry (r, o) lies in row block r / 1024. -/
theorem covered (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := every_block_visited ⟨(i 0).val / 1024, by omega⟩
  have q0 : win2_3.index t (0 : Fin 2) = (i 0).val / 1024 := congrFun ht 0
  have q1 : win2_3.index t (1 : Fin 2) = 0 := congrFun ht 1
  refine ⟨t, flush2_3 t, ?_⟩
  rw [in_block_iff]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

end OutputProjection

open OutputProjection in
/-- The array the last projection leaves behind is the matrix product of the two arrays it read plus the bias row. -/
theorem arr2 (c : Dev nD) (r : Fin 4096) (o : Fin 1024) :
    ((dat2 (F := Ideal) V c).arrAt 3 cfg2.N : S4096x1024.Idx → EReal) (ix2 r o)
      = Cert.Attn.proj 4096 1024 1024 (V c main_v15) (V c main_v17) r o
        + (show (⟨2, ![1, 1024]⟩ : Shape).Idx → EReal from V c main_v18) (ix2 (0 : Fin 1) o) :=
  congrFun ((dat2 (F := Ideal) V c).arrAt_eq_of_cover 3
    (projBiasArray (V c main_v15) (V c main_v17) (V c main_v18))
    (fun t _ => written_back V c t) covered) (ix2 r o)

end Cert.KernelIdeal.Bridge
end
-- ==== Proof.KernelRun.lean ====
/-
  The idealized kernel program's run with its result named.  The program is seven segments in a row: a stretch of host
  operations, a pallas_call region, and so on.  Every weakly fair execution from any launch memory terminates without a
  fault, and at the end every unscoped buffer holds what the fold through the segments says (the contents after the last
  stretch of host operations); in particular the result buffer holds that fold's value at it, and the four argument
  arrays hold what they were launched with.
-/
import proofs.«149181_j24799141167461_2_alg».proof.Proof.Gen.KernelIdeal.Frame

set_option maxRecDepth 16384

noncomputable section

namespace Cert.KernelIdeal.Bridge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result read off the last boundary: the result buffer ends at the fold's value, the arguments as
    launched. -/
theorem run_result : θ_run defs (onTc (τ := τ) (main (F := F))) ⟨m, fun _ => 0, ρ⟩ (fun r => ∀ c : Dev nD,
      r.2.mem ((c.tc : Thread nD τ).loc main_v20) = W7 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v20 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.Bridge

end
-- ==== Proof.KernelHost.lean ====
/-
  The buffers between the regions.  Each stretch of host operations is a few layout steps (a reshape, a transpose, a
  slice) and format changes (which are the identity on extended reals), so every buffer a region reads is a re-indexing
  of an argument array or of the array the previous region left.  Here each such buffer is written as that re-indexing.
-/
import proofs.«149181_j24799141167461_2_alg».proof.Proof.Gen.KernelIdeal.Frame
import Idealize.ShloMosaic.Lib.StableHlo.Run
import Idealize.ShloMosaic.Lib.Pipeline.Value
import Idealize.ShloMosaic.PureOps.Ideal

noncomputable section

namespace Cert.KernelIdeal.Bridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- Re-indexing to a second shape and on to a third is re-indexing to the third: all three keep the row-major position. -/
theorem shapeCast_trans {s t u : Shape} {α : Type} (v : s.Idx → α) (h : s.ShapeCasts t) (h' : t.ShapeCasts u)
    (h'' : s.ShapeCasts u) : shapeCast u (shapeCast t v h) h' = shapeCast u v h'' :=
  funext fun i => congrArg v (Shape.reshapeEquiv_reshapeEquiv _ _ i)

/-! ## Before the first projection: the activations as a [4096, 1024] matrix, the weight transposed -/

theorem entry0_rows (c : Dev nD) :
    V1 m ρ c main_v1 = truncf (F := Ideal) .bf16 (shapeCast S4096x1024 (m ((c : Thread nD τ).loc main_arg0)) shapeCasts_S2x2048x1024_S4096x1024) bitsLt_bf16_f32 := by
  show StableHlo.after hostOps0 (W0 m ρ c) (Proc.devRef .tc main_v1) = _
  after_results <;> rfl

theorem entry0_cols (c : Dev nD) :
    V1 m ρ c main_v3 = truncf (F := Ideal) .bf16 (transpose S1024x3072 [1, 0] (m ((c : Thread nD τ).loc main_arg1)) transposes_S3072x1024_S1024x3072_1_0) bitsLt_bf16_f32 := by
  show StableHlo.after hostOps0 (W0 m ρ c) (Proc.devRef .tc main_v3) = _
  after_results <;> rfl

/-! ## Between the first projection and the attention: queries, keys and values cut out of the projected matrix

The [4096, 3072] matrix the projection left is read as [2, 2048, 3, 16, 64] (batch, position, which of q / k / v, head,
feature), its axes are permuted to [3, 2, 16, 2048, 64], and slab 0, 1 or 2 of the leading axis is taken. -/

/-- The layout steps from the projected matrix to slab s of the permuted array. -/
def heads (off : Fin 5 → Nat) (hs : S3x2x16x2048x64.Slices off S1x2x16x2048x64) (y : FVec Ideal S4096x3072 .bf16) :
    FVec Ideal S2x16x2048x64 .bf16 :=
  shapeCast S2x16x2048x64
    (extractStridedSlice S1x2x16x2048x64 off
      (transpose S3x2x16x2048x64 [2, 0, 3, 1, 4] (shapeCast S2x2048x3x16x64 y shapeCasts_S4096x3072_S2x2048x3x16x64)
        transposes_S2x2048x3x16x64_S3x2x16x2048x64_2_0_3_1_4) hs)
    shapeCasts_S1x2x16x2048x64_S2x16x2048x64

theorem entry1_q (c : Dev nD) :
    V3 m ρ c main_v8 = heads ![0, 0, 0, 0, 0] slices_S3x2x16x2048x64_S1x2x16x2048x64_0_0_0_0_0 (W2 m ρ c (Proc.devRef .tc main_v4)) := by
  show StableHlo.after hostOps1 (W2 m ρ c) (Proc.devRef .tc main_v8) = _
  after_results <;> rfl

theorem entry1_k (c : Dev nD) :
    V3 m ρ c main_v10 = heads ![1, 0, 0, 0, 0] slices_S3x2x16x2048x64_S1x2x16x2048x64_1_0_0_0_0 (W2 m ρ c (Proc.devRef .tc main_v4)) := by
  show StableHlo.after hostOps1 (W2 m ρ c) (Proc.devRef .tc main_v10) = _
  after_results <;> rfl

theorem entry1_v (c : Dev nD) :
    V3 m ρ c main_v12 = heads ![2, 0, 0, 0, 0] slices_S3x2x16x2048x64_S1x2x16x2048x64_2_0_0_0_0 (W2 m ρ c (Proc.devRef .tc main_v4)) := by
  show StableHlo.after hostOps1 (W2 m ρ c) (Proc.devRef .tc main_v12) = _
  after_results <;> rfl

/-! ## Between the attention and the last projection: the heads laid side by side again, the weight transposed, the bias as a row -/

theorem entry2_rows (c : Dev nD) :
    V5 m ρ c main_v15 = shapeCast S4096x1024
      (transpose S2x2048x16x64 [0, 2, 1, 3] (W4 m ρ c (Proc.devRef .tc main_v13)) transposes_S2x16x2048x64_S2x2048x16x64_0_2_1_3)
      shapeCasts_S2x2048x16x64_S4096x1024 := by
  show StableHlo.after hostOps2 (W4 m ρ c) (Proc.devRef .tc main_v15) = _
  after_results <;> rfl

/-- No region and no host operation before the last projection writes the projection weight or the bias. -/
theorem kept_arg2 (c : Dev nD) : W4 m ρ c (Proc.devRef .tc main_arg2) = m ((c : Thread nD τ).loc main_arg2) := by
  rw [W4_of_ne m ρ c main_arg2 (by decide)]
  show StableHlo.after hostOps1 (W2 m ρ c) (Proc.devRef .tc main_arg2) = _
  have e : StableHlo.after hostOps1 (W2 m ρ c) (Proc.devRef .tc main_arg2) = W2 m ρ c (Proc.devRef .tc main_arg2) := by after_results
  rw [e, W2_of_ne m ρ c main_arg2 (by decide)]
  show StableHlo.after hostOps0 (W0 m ρ c) (Proc.devRef .tc main_arg2) = _
  after_results <;> rfl

theorem kept_arg3 (c : Dev nD) : W4 m ρ c (Proc.devRef .tc main_arg3) = m ((c : Thread nD τ).loc main_arg3) := by
  rw [W4_of_ne m ρ c main_arg3 (by decide)]
  show StableHlo.after hostOps1 (W2 m ρ c) (Proc.devRef .tc main_arg3) = _
  have e : StableHlo.after hostOps1 (W2 m ρ c) (Proc.devRef .tc main_arg3) = W2 m ρ c (Proc.devRef .tc main_arg3) := by after_results
  rw [e, W2_of_ne m ρ c main_arg3 (by decide)]
  show StableHlo.after hostOps0 (W0 m ρ c) (Proc.devRef .tc main_arg3) = _
  after_results <;> rfl

theorem entry2_cols (c : Dev nD) :
    V5 m ρ c main_v17 = truncf (F := Ideal) .bf16
      (transpose S1024x1024 [1, 0] (m ((c : Thread nD τ).loc main_arg2)) transposes_S1024x1024_S1024x1024_1_0) bitsLt_bf16_f32 := by
  rw [← kept_arg2 m ρ c]
  show StableHlo.after hostOps2 (W4 m ρ c) (Proc.devRef .tc main_v17) = _
  after_results <;> rfl

theorem entry2_bias (c : Dev nD) :
    V5 m ρ c main_v18 = shapeCast S1x1024 (m ((c : Thread nD τ).loc main_arg3)) shapeCasts_S1024_S1x1024 := by
  rw [← kept_arg3 m ρ c]
  show StableHlo.after hostOps2 (W4 m ρ c) (Proc.devRef .tc main_v18) = _
  after_results <;> rfl

/-! ## After the last projection: the [4096, 1024] result read as [2, 2048, 1024] -/

theorem result_eq (c : Dev nD) :
    W7 m ρ c (Proc.devRef .tc main_v20) = shapeCast S2x2048x1024 (W6 m ρ c (Proc.devRef .tc main_v19)) shapeCasts_S4096x1024_S2x2048x1024 := by
  show StableHlo.after hostOps3 (W6 m ρ c) (Proc.devRef .tc main_v20) = _
  after_results <;> rfl

end Cert.KernelIdeal.Bridge

end
-- ==== Proof.RefAttention.lean ====
/-
  The reference's attention stages read as the softmax attention of its own queries, keys and values.  The reference
  scales the queries by one eighth before the scores, takes each row's maximum once by a reduction from minus infinity and
  once more against minus infinity (which changes nothing: the fold already starts there), exponentiates the differences,
  sums them from zero, divides, and applies the result to the values.
-/
import proofs.«149181_j24799141167461_2_alg».proof.Proof.Spec
import proofs.«149181_j24799141167461_2_alg».proof.Proof.Gen.ReferenceIdeal.Read
import Idealize.ShloMosaic.Lib.ValueIdx
import Idealize.ShloMosaic.PureOps.Ideal.Laws
import Mathlib.Data.Finset.Fold

noncomputable section

namespace Cert.ReferenceIdeal.RefValue

open Idealize.ShloMosaic Idealize.ShloMosaic.ValueIdx
open Cert.ReferenceIdeal Cert.ReferenceIdeal.Gen Cert.ReferenceIdeal.Read

/-- One eighth as a bf16 word and as an f32 word is the same number. -/
theorem eighth_eq : Ideal.ofBits .bf16 0x3E00#16 = Ideal.ofBits .f32 0x3E000000#32 := by
  simp [Ideal.ofBits, Ideal.ieee]
  norm_cast
  norm_num

/-- A maximum folded from a taken against a once more is itself: the fold is already at least a. -/
theorem max_fold (f : Fin 2048 → EReal) (a : EReal) :
    max a ((Finset.univ : Finset (Fin 2048)).fold max a f) = (Finset.univ : Finset (Fin 2048)).fold max a f := by
  apply max_eq_right
  rw [Finset.le_fold_max]
  exact Or.inl le_rfl

variable (x : FVec Ideal S2x2048x1024 .f32) (w : FVec Ideal S3072x1024 .f32)

/-- The reference's scores: its scaled queries against its keys. -/
theorem score_eq (b : Fin 2) (h : Fin 16) (n j : Fin 2048) :
    val_main_v11 (F := Ideal) x w (ix4 b h n j)
      = Cert.Attn.score (Ideal.ofBits .f32 0x3E000000#32) (val_main_v4 (F := Ideal) x w) (val_main_v8 (F := Ideal) x w) b h n j := by
  rw [val_main_v11_apply]
  unfold Cert.Attn.score
  refine Finset.sum_congr rfl fun k _ => ?_
  have el : lidx_main_v11 (ix4 b h n j) k = ix4 b h n k :=
    funext fun a => Fin.ext (by match a with | ⟨0, _⟩ => rfl | ⟨1, _⟩ => rfl | ⟨2, _⟩ => rfl | ⟨3, _⟩ => rfl)
  have er : ridx_main_v11 (ix4 b h n j) k = ix4 b h j k :=
    funext fun a => Fin.ext (by match a with | ⟨0, _⟩ => rfl | ⟨1, _⟩ => rfl | ⟨2, _⟩ => rfl | ⟨3, _⟩ => rfl)
  rw [el, er, val_main_v6_apply, val_main_v5_apply, val_main_cst_apply]
  rfl

/-- The reference's row maximum. -/
theorem top_eq (b : Fin 2) (h : Fin 16) (n : Fin 2048) :
    val_main_v14 (F := Ideal) x w (ix3 b h n)
      = Cert.Attn.top (Ideal.ofBits .f32 0x3E000000#32) (Ideal.ofBits .f32 0xFF800000#32)
          (val_main_v4 (F := Ideal) x w) (val_main_v8 (F := Ideal) x w) b h n := by
  have e12 : val_main_v12 (F := Ideal) x w (ix3 b h n)
      = (Finset.univ : Finset (Fin 2048)).fold max (Ideal.ofBits .f32 0xFF800000#32)
          (fun j => val_main_v11 (F := Ideal) x w (ix4 b h n j)) := by
    unfold val_main_v12
    refine (Host.reduce_eq_fold_single _ _ _ reducesTo_S2x16x2048x2048_S2x16x2048_d3 (by decide) h_S_ (ix3 b h n)).trans ?_
    refine congrArg (fun f => Finset.fold max (Ideal.ofBits .f32 0xFF800000#32) f (Finset.univ : Finset (Fin 2048))) ?_
    funext j
    exact congrArg (val_main_v11 (F := Ideal) x w)
      (funext fun a => Fin.ext (by match a with | ⟨0, _⟩ => rfl | ⟨1, _⟩ => rfl | ⟨2, _⟩ => rfl | ⟨3, _⟩ => rfl))
  rw [val_main_v14_apply, val_main_v13_apply, val_main_cst_1_apply, e12]
  show max (Ideal.ofBits .f32 0xFF800000#32) _ = _
  rw [max_fold]
  unfold Cert.Attn.top
  exact congrArg (fun f => Finset.fold max (Ideal.ofBits .f32 0xFF800000#32) f (Finset.univ : Finset (Fin 2048)))
    (funext fun j => score_eq x w b h n j)

/-- The reference's unnormalised weights. -/
theorem weight_eq (b : Fin 2) (h : Fin 16) (n j : Fin 2048) :
    val_main_v18 (F := Ideal) x w (ix4 b h n j)
      = Cert.Attn.weight (Ideal.ofBits .f32 0x3E000000#32) (Ideal.ofBits .f32 0xFF800000#32)
          (val_main_v4 (F := Ideal) x w) (val_main_v8 (F := Ideal) x w) b h n j := by
  have ei : idx_main_v15 (idx_main_v16 (ix4 b h n j)) = ix3 b h n :=
    funext fun a => Fin.ext (by match a with | ⟨0, _⟩ => rfl | ⟨1, _⟩ => rfl | ⟨2, _⟩ => rfl)
  rw [val_main_v18_apply, val_main_v17_apply, val_main_v16_apply, val_main_v15_apply, ei, top_eq, score_eq]
  rfl

/-- The reference's row totals. -/
theorem mass_eq (b : Fin 2) (h : Fin 16) (n : Fin 2048) :
    val_main_v19 (F := Ideal) x w (ix3 b h n)
      = Cert.Attn.mass (Ideal.ofBits .f32 0x3E000000#32) (Ideal.ofBits .f32 0xFF800000#32)
          (val_main_v4 (F := Ideal) x w) (val_main_v8 (F := Ideal) x w) b h n := by
  rw [val_main_v19_apply, val_main_cst_2_apply]
  show Ideal.ofBits .f32 0x00000000#32 + _ = _
  rw [Ideal.ofBits_zero_f32, zero_add]
  unfold Cert.Attn.mass
  refine Finset.sum_congr rfl fun k _ => ?_
  have ei : idx_main_v19 (ix3 b h n) k = ix4 b h n k :=
    funext fun a => Fin.ext (by match a with | ⟨0, _⟩ => rfl | ⟨1, _⟩ => rfl | ⟨2, _⟩ => rfl | ⟨3, _⟩ => rfl)
  rw [ei, weight_eq]

/-- The reference's attention output is the softmax attention of its queries, keys and values. -/
theorem attend_eq (b : Fin 2) (h : Fin 16) (n : Fin 2048) (d : Fin 64) :
    val_main_v23 (F := Ideal) x w (ix4 b h n d)
      = Cert.Attn.attend (Ideal.ofBits .f32 0x3E000000#32) (Ideal.ofBits .f32 0xFF800000#32)
          (val_main_v4 (F := Ideal) x w) (val_main_v8 (F := Ideal) x w) (val_main_v10 (F := Ideal) x w) b h n d := by
  rw [val_main_v23_apply]
  unfold Cert.Attn.attend
  refine Finset.sum_congr rfl fun k _ => ?_
  have el : lidx_main_v23 (ix4 b h n d) k = ix4 b h n k :=
    funext fun a => Fin.ext (by match a with | ⟨0, _⟩ => rfl | ⟨1, _⟩ => rfl | ⟨2, _⟩ => rfl | ⟨3, _⟩ => rfl)
  have er : ridx_main_v23 (ix4 b h n d) k = ix4 b h k d :=
    funext fun a => Fin.ext (by match a with | ⟨0, _⟩ => rfl | ⟨1, _⟩ => rfl | ⟨2, _⟩ => rfl | ⟨3, _⟩ => rfl)
  have ei : idx_main_v20 (idx_main_v21 (ix4 b h n k)) = ix3 b h n :=
    funext fun a => Fin.ext (by match a with | ⟨0, _⟩ => rfl | ⟨1, _⟩ => rfl | ⟨2, _⟩ => rfl)
  rw [el, er, val_main_v22_apply, val_main_v21_apply, val_main_v20_apply, ei, mass_eq, weight_eq]
  rfl

end Cert.ReferenceIdeal.RefValue

end
-- ==== Proof.KernelValue.lean ====
/-
  The kernel program's buffers against the reference's stages.  Both programs do the same three things: project the
  activations onto queries, keys and values, attend within each head, and project the result back.  The kernel works on
  [4096, ...] matrices (batch and position merged into one row index) in tiles, the reference on [2, 2048, ...] arrays
  whole; a row r of the kernel's matrices is (batch r / 2048, position r % 2048) of the reference's arrays.  Stage by stage
  the kernel's buffer is the reference's stage read through that merge, so after the same layout steps on both sides the
  attention inputs, the attention outputs and the final results coincide.
-/
import proofs.«149181_j24799141167461_2_alg».proof.Proof.KernelHost
import proofs.«149181_j24799141167461_2_alg».proof.Proof.Spec
import proofs.«149181_j24799141167461_2_alg».proof.Proof.RefAttention
import proofs.«149181_j24799141167461_2_alg».proof.Proof.Gen.ReferenceIdeal.Read
import Idealize.ShloMosaic.Lib.ValueIdx
import Idealize.ShloMosaic.Lib.ValueLayout
import Idealize.ShloMosaic.PureOps.Ideal.Laws

noncomputable section

namespace Cert.KernelIdeal.Bridge

open Idealize.ShloMosaic Idealize.ShloMosaic.TcCoe Idealize.SL.Sem Idealize.ShloMosaic.ValueIdx
open Cert.KernelIdeal Cert.KernelIdeal.Gen
open Cert.ReferenceIdeal.Read

/-- Row r of a [4096, ...] matrix is batch r / 2048 ... -/
abbrev rowBatch (r : Fin 4096) : Fin 2 := ⟨r.val / 2048, by have := r.isLt; omega⟩
/-- ... at position r % 2048. -/
abbrev rowPos (r : Fin 4096) : Fin 2048 := ⟨r.val % 2048, Nat.mod_lt _ (by decide)⟩

/-! ## The first projection -/

/-- The activations read as a [4096, 1024] matrix times the transposed weight, at (r, o), is the reference's product of
    the [2, 2048, 1024] activations with the weight at (batch, position, o): the same sum over the 1024 input features. -/
theorem proj0_apply (x : FVec Ideal S2x2048x1024 .f32) (w : FVec Ideal S3072x1024 .f32) (r : Fin 4096) (o : Fin 3072) :
    Cert.Attn.proj 4096 1024 3072
        (truncf (F := Ideal) .bf16 (shapeCast S4096x1024 x shapeCasts_S2x2048x1024_S4096x1024) bitsLt_bf16_f32)
        (truncf (F := Ideal) .bf16 (transpose S1024x3072 [1, 0] w transposes_S3072x1024_S1024x3072_1_0) bitsLt_bf16_f32) r o
      = val_main_v0 (F := Ideal) x w (ix3 (rowBatch r) (rowPos r) o) := by
  rw [val_main_v0_apply]
  unfold Cert.Attn.proj
  refine Finset.sum_congr rfl fun k _ => ?_
  have e1 : shapeCast S4096x1024 x shapeCasts_S2x2048x1024_S4096x1024 (ix2 r k) = x (ix3 (rowBatch r) (rowPos r) k) :=
    shapeCast_apply x shapeCasts_S2x2048x1024_S4096x1024 (ix2 r k) (ix3 (rowBatch r) (rowPos r) k) (by
      rw [Shape.rowMajor_val_three, Shape.rowMajor_val_two]
      show (r.val / 2048 * 2048 + r.val % 2048) * 1024 + k.val = r.val * 1024 + k.val
      omega)
  have e2 : transpose S1024x3072 [1, 0] w transposes_S3072x1024_S1024x3072_1_0 (ix2 k o) = w (ix2 o k) :=
    transpose_ix2_apply w transposes_S3072x1024_S1024x3072_1_0 k o
  have el : lidx_main_v0 (ix3 (rowBatch r) (rowPos r) o) k = ix3 (rowBatch r) (rowPos r) k :=
    funext fun a => Fin.ext (by match a with | ⟨0, _⟩ => rfl | ⟨1, _⟩ => rfl | ⟨2, _⟩ => rfl)
  have er : ridx_main_v0 (ix3 (rowBatch r) (rowPos r) o) k = ix2 o k :=
    funext fun a => Fin.ext (by match a with | ⟨0, _⟩ => rfl | ⟨1, _⟩ => rfl)
  rw [el, er]
  show shapeCast S4096x1024 x shapeCasts_S2x2048x1024_S4096x1024 (ix2 r k)
      * transpose S1024x3072 [1, 0] w transposes_S3072x1024_S1024x3072_1_0 (ix2 k o) = _
  rw [e1, e2]

variable (m : (ℓ : Loc nD τ sig) → Buf (Elt Ideal) ℓ) (ρ : Dev nD → PrngReg)

/-- What region 0 leaves, as a function of what it found: the matrix product (the statement proved for the region). -/
abbrev Region0Spec : Prop :=
  ∀ (V : (c : Dev nD) → (b : Ref sig .tc) → Buf (Elt Ideal) ((c : Thread nD τ).loc b)) (c : Dev nD) (r : Fin 4096) (o : Fin 3072),
    ((dat0 (F := Ideal) V c).arrAt 2 cfg0.N : S4096x3072.Idx → EReal) (ix2 r o)
      = Cert.Attn.proj 4096 1024 3072 (V c main_v1) (V c main_v3) r o

/-- After the first region the projected matrix is the reference's product with batch and position merged into the row. -/
theorem proj0_buf (h0 : Region0Spec) (c : Dev nD) :
    W2 m ρ c (Proc.devRef .tc main_v4)
      = shapeCast S4096x3072 (val_main_v0 (F := Ideal) (m ((c : Thread nD τ).loc main_arg0)) (m ((c : Thread nD τ).loc main_arg1)))
          (by decide : Cert.ReferenceIdeal.S2x2048x3072.ShapeCasts S4096x3072) := by
  have e : W2 m ρ c (Proc.devRef .tc main_v4) = (dat0 (V1 m ρ) c).arrAt 2 cfg0.N := W2_arr m ρ c 2
  rw [e]
  funext j
  obtain ⟨r, o, rfl⟩ : ∃ (r : Fin 4096) (o : Fin 3072), j = ix2 r o := ⟨j 0, j 1, eq_ix2 j⟩
  refine (h0 (V1 m ρ) c r o).trans ?_
  rw [entry0_rows m ρ c, entry0_cols m ρ c]
  refine (proj0_apply _ _ r o).trans (Eq.symm ?_)
  exact shapeCast_apply _ _ (ix2 r o) (ix3 (rowBatch r) (rowPos r) o) (by
    rw [Shape.rowMajor_val_three, Shape.rowMajor_val_two]
    show (r.val / 2048 * 2048 + r.val % 2048) * 3072 + o.val = r.val * 3072 + o.val
    omega)

/-! ## Queries, keys and values

The same three layout steps on both sides, applied on the kernel's side to the merged matrix and on the reference's to
the unmerged array: re-indexing twice is re-indexing once, so the results coincide. -/

theorem heads_q (x : FVec Ideal S2x2048x1024 .f32) (w : FVec Ideal S3072x1024 .f32) :
    heads ![0, 0, 0, 0, 0] slices_S3x2x16x2048x64_S1x2x16x2048x64_0_0_0_0_0
        (shapeCast S4096x3072 (val_main_v0 (F := Ideal) x w) (by decide : Cert.ReferenceIdeal.S2x2048x3072.ShapeCasts S4096x3072))
      = val_main_v4 (F := Ideal) x w := by
  unfold heads val_main_v4 val_main_v3 val_main_v2 val_main_v1
  rw [shapeCast_trans _ _ _ (by decide : Cert.ReferenceIdeal.S2x2048x3072.ShapeCasts S2x2048x3x16x64)]

theorem heads_k (x : FVec Ideal S2x2048x1024 .f32) (w : FVec Ideal S3072x1024 .f32) :
    heads ![1, 0, 0, 0, 0] slices_S3x2x16x2048x64_S1x2x16x2048x64_1_0_0_0_0
        (shapeCast S4096x3072 (val_main_v0 (F := Ideal) x w) (by decide : Cert.ReferenceIdeal.S2x2048x3072.ShapeCasts S4096x3072))
      = val_main_v8 (F := Ideal) x w := by
  unfold heads val_main_v8 val_main_v7 val_main_v2 val_main_v1
  rw [shapeCast_trans _ _ _ (by decide : Cert.ReferenceIdeal.S2x2048x3072.ShapeCasts S2x2048x3x16x64)]

theorem heads_v (x : FVec Ideal S2x2048x1024 .f32) (w : FVec Ideal S3072x1024 .f32) :
    heads ![2, 0, 0, 0, 0] slices_S3x2x16x2048x64_S1x2x16x2048x64_2_0_0_0_0
        (shapeCast S4096x3072 (val_main_v0 (F := Ideal) x w) (by decide : Cert.ReferenceIdeal.S2x2048x3072.ShapeCasts S4096x3072))
      = val_main_v10 (F := Ideal) x w := by
  unfold heads val_main_v10 val_main_v9 val_main_v2 val_main_v1
  rw [shapeCast_trans _ _ _ (by decide : Cert.ReferenceIdeal.S2x2048x3072.ShapeCasts S2x2048x3x16x64)]

/-! ## The attention -/

/-- What region 1 leaves, as a function of what it found: softmax attention per batch and head, with the kernel's words
    for one eighth and minus infinity (the statement proved for the region). -/
abbrev Region1Spec : Prop :=
  ∀ (V : (c : Dev nD) → (b : Ref sig .tc) → Buf (Elt Ideal) ((c : Thread nD τ).loc b)) (c : Dev nD)
    (b : Fin 2) (h : Fin 16) (n : Fin 2048) (d : Fin 64),
    ((dat1 (F := Ideal) V c).arrAt 3 cfg1.N : S2x16x2048x64.Idx → EReal) (ix4 b h n d)
      = Cert.Attn.attend (Ideal.ofBits .bf16 0x3E00#16) (Ideal.ofBits .f32 0xFF800000#32)
          (V c main_v8) (V c main_v10) (V c main_v12) b h n d

/-- After the second region the attention output is the reference's: the same function of the same queries, keys and
    values, the two words for one eighth being one number. -/
theorem attn_buf (h0 : Region0Spec) (h1 : Region1Spec) (c : Dev nD) :
    W4 m ρ c (Proc.devRef .tc main_v13)
      = val_main_v23 (F := Ideal) (m ((c : Thread nD τ).loc main_arg0)) (m ((c : Thread nD τ).loc main_arg1)) := by
  have e : W4 m ρ c (Proc.devRef .tc main_v13) = (dat1 (V3 m ρ) c).arrAt 3 cfg1.N := W4_arr m ρ c 3
  rw [e]
  funext j
  obtain ⟨b, h, n, d, rfl⟩ : ∃ (b : Fin 2) (h : Fin 16) (n : Fin 2048) (d : Fin 64), j = ix4 b h n d :=
    ⟨j 0, j 1, j 2, j 3, eq_ix4 j⟩
  refine (h1 (V3 m ρ) c b h n d).trans ?_
  rw [entry1_q m ρ c, entry1_k m ρ c, entry1_v m ρ c, proj0_buf m ρ h0 c, heads_q, heads_k, heads_v,
    Cert.ReferenceIdeal.RefValue.eighth_eq]
  exact (Cert.ReferenceIdeal.RefValue.attend_eq _ _ b h n d).symm

/-! ## The last projection -/

/-- The rows of the last projection: the heads laid side by side, batch and position merged. -/
theorem rows2_buf (h0 : Region0Spec) (h1 : Region1Spec) (c : Dev nD) :
    V5 m ρ c main_v15
      = shapeCast S4096x1024 (val_main_v25 (F := Ideal) (m ((c : Thread nD τ).loc main_arg0)) (m ((c : Thread nD τ).loc main_arg1)))
          (by decide : Cert.ReferenceIdeal.S2x2048x1024.ShapeCasts S4096x1024) := by
  rw [entry2_rows m ρ c, attn_buf m ρ h0 h1 c]
  unfold val_main_v25 val_main_v24
  rw [shapeCast_trans _ _ _ (by decide : Cert.ReferenceIdeal.S2x2048x16x64.ShapeCasts S4096x1024)]

/-- The merged rows times the transposed weight plus the bias row, at (r, o), is the reference's last product plus its
    broadcast bias at (batch, position, o). -/
theorem proj2_apply (x : FVec Ideal S2x2048x1024 .f32) (w : FVec Ideal S3072x1024 .f32) (p : FVec Ideal S1024x1024 .f32)
    (bb : FVec Ideal S1024 .f32) (r : Fin 4096) (o : Fin 1024) :
    Cert.Attn.proj 4096 1024 1024
        (shapeCast S4096x1024 (val_main_v25 (F := Ideal) x w) (by decide : Cert.ReferenceIdeal.S2x2048x1024.ShapeCasts S4096x1024))
        (truncf (F := Ideal) .bf16 (transpose S1024x1024 [1, 0] p transposes_S1024x1024_S1024x1024_1_0) bitsLt_bf16_f32) r o
      + (show (⟨2, ![1, 1024]⟩ : Shape).Idx → EReal from shapeCast S1x1024 bb shapeCasts_S1024_S1x1024) (ix2 (0 : Fin 1) o)
      = val_main_v29 (F := Ideal) x w p bb (ix3 (rowBatch r) (rowPos r) o) := by
  rw [val_main_v29_apply, val_main_v26_apply, val_main_v28_apply, val_main_v27_apply]
  have eb : idx_main_v27 (idx_main_v28 (ix3 (rowBatch r) (rowPos r) o)) = ix1 o :=
    funext fun a => Fin.ext (by match a with | ⟨0, _⟩ => rfl)
  have e3 : shapeCast S1x1024 bb shapeCasts_S1024_S1x1024 (ix2 (0 : Fin 1) o) = bb (ix1 o) :=
    shapeCast_a_1a_apply bb shapeCasts_S1024_S1x1024 (0 : Fin 1) o
  rw [eb]
  show _ + shapeCast S1x1024 bb shapeCasts_S1024_S1x1024 (ix2 (0 : Fin 1) o) = _ + _
  rw [e3]
  refine congrArg (· + bb (ix1 o)) ?_
  unfold Cert.Attn.proj
  refine Finset.sum_congr rfl fun k _ => ?_
  have e1 : shapeCast S4096x1024 (val_main_v25 (F := Ideal) x w)
      (by decide : Cert.ReferenceIdeal.S2x2048x1024.ShapeCasts S4096x1024) (ix2 r k)
      = val_main_v25 (F := Ideal) x w (ix3 (rowBatch r) (rowPos r) k) :=
    shapeCast_apply _ _ (ix2 r k) (ix3 (rowBatch r) (rowPos r) k) (by
      rw [Shape.rowMajor_val_three, Shape.rowMajor_val_two]
      show (r.val / 2048 * 2048 + r.val % 2048) * 1024 + k.val = r.val * 1024 + k.val
      omega)
  have e2 : transpose S1024x1024 [1, 0] p transposes_S1024x1024_S1024x1024_1_0 (ix2 k o) = p (ix2 o k) :=
    transpose_ix2_apply p transposes_S1024x1024_S1024x1024_1_0 k o
  have el : lidx_main_v26 (ix3 (rowBatch r) (rowPos r) o) k = ix3 (rowBatch r) (rowPos r) k :=
    funext fun a => Fin.ext (by match a with | ⟨0, _⟩ => rfl | ⟨1, _⟩ => rfl | ⟨2, _⟩ => rfl)
  have er : ridx_main_v26 (ix3 (rowBatch r) (rowPos r) o) k = ix2 o k :=
    funext fun a => Fin.ext (by match a with | ⟨0, _⟩ => rfl | ⟨1, _⟩ => rfl)
  rw [el, er]
  show shapeCast S4096x1024 (val_main_v25 (F := Ideal) x w) _ (ix2 r k)
      * transpose S1024x1024 [1, 0] p transposes_S1024x1024_S1024x1024_1_0 (ix2 k o) = _
  rw [e1, e2]

/-- What region 2 leaves, as a function of what it found: the matrix product plus the bias row (the statement proved
    for the region). -/
abbrev Region2Spec : Prop :=
  ∀ (V : (c : Dev nD) → (b : Ref sig .tc) → Buf (Elt Ideal) ((c : Thread nD τ).loc b)) (c : Dev nD) (r : Fin 4096) (o : Fin 1024),
    ((dat2 (F := Ideal) V c).arrAt 3 cfg2.N : S4096x1024.Idx → EReal) (ix2 r o)
      = Cert.Attn.proj 4096 1024 1024 (V c main_v15) (V c main_v17) r o
        + (show (⟨2, ![1, 1024]⟩ : Shape).Idx → EReal from V c main_v18) (ix2 (0 : Fin 1) o)

/-- After the third region the projected matrix is the reference's result with batch and position merged into the row. -/
theorem proj2_buf (h0 : Region0Spec) (h1 : Region1Spec) (h2 : Region2Spec) (c : Dev nD) :
    W6 m ρ c (Proc.devRef .tc main_v19)
      = shapeCast S4096x1024
          (val_main_v29 (F := Ideal) (m ((c : Thread nD τ).loc main_arg0)) (m ((c : Thread nD τ).loc main_arg1))
            (m ((c : Thread nD τ).loc main_arg2)) (m ((c : Thread nD τ).loc main_arg3)))
          (by decide : Cert.ReferenceIdeal.S2x2048x1024.ShapeCasts S4096x1024) := by
  have e : W6 m ρ c (Proc.devRef .tc main_v19) = (dat2 (V5 m ρ) c).arrAt 3 cfg2.N := W6_arr m ρ c 3
  rw [e]
  funext j
  obtain ⟨r, o, rfl⟩ : ∃ (r : Fin 4096) (o : Fin 1024), j = ix2 r o := ⟨j 0, j 1, eq_ix2 j⟩
  refine (h2 (V5 m ρ) c r o).trans ?_
  rw [rows2_buf m ρ h0 h1 c, entry2_cols m ρ c, entry2_bias m ρ c]
  refine (proj2_apply _ _ _ _ r o).trans (Eq.symm ?_)
  exact shapeCast_apply _ _ (ix2 r o) (ix3 (rowBatch r) (rowPos r) o) (by
    rw [Shape.rowMajor_val_three, Shape.rowMajor_val_two]
    show (r.val / 2048 * 2048 + r.val % 2048) * 1024 + o.val = r.val * 1024 + o.val
    omega)

/-! ## The result -/

/-- The kernel program's result buffer ends at the reference's result: the merged matrix read back as [2, 2048, 1024]. -/
theorem result_buf (h0 : Region0Spec) (h1 : Region1Spec) (h2 : Region2Spec) (c : Dev nD) :
    W7 m ρ c (Proc.devRef .tc main_v20)
      = val_main_v29 (F := Ideal) (m ((c : Thread nD τ).loc main_arg0)) (m ((c : Thread nD τ).loc main_arg1))
          (m ((c : Thread nD τ).loc main_arg2)) (m ((c : Thread nD τ).loc main_arg3)) := by
  rw [result_eq m ρ c, proj2_buf m ρ h0 h1 h2 c]
  exact shapeCast_shapeCast _ _ _

end Cert.KernelIdeal.Bridge

end
-- ==== Proof.Algebraic.lean ====
/-
  The two idealized programs end with equal results.  The kernel program's run ends with its result buffer at the fold
  through its segments, which stage by stage is the reference's last stage of the same arguments; the reference's run ends
  at that stage by itself.  So from memories that agree on the four arguments both results are one array.
-/
import proofs.«149181_j24799141167461_2_alg».proof.Defs
import proofs.«149181_j24799141167461_2_alg».proof.Proof.KernelRun
import proofs.«149181_j24799141167461_2_alg».proof.Proof.KernelValue
import proofs.«149181_j24799141167461_2_alg».proof.Proof.Gen.ReferenceIdeal.Run
import proofs.«149181_j24799141167461_2_alg».proof.Proof.Gen.ReferenceIdeal.Read
import proofs.«149181_j24799141167461_2_alg».proof.Proof.Gen.Pre_finite_inputs

noncomputable section

namespace Cert.Proof.Parts

open Idealize.ShloMosaic Idealize.ShloMosaic.TcCoe Idealize.SL.Sem
open Cert.KernelIdeal.Bridge

/-- Given what each of the three regions leaves behind, the kernel program and the reference end with the same result. -/
theorem algebraic_of (h0 : Region0Spec) (h1 : Region1Spec) (h2 : Region2Spec) :
    Cert.algebraic_KernelIdeal_ReferenceIdeal := by
  intro m ρ m' ρ' _ hagree
  refine ⟨fun c => Cert.ReferenceIdeal.Read.val_main_v29 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (result_buf m ρ h0 h1 h2 c), (h c).2⟩) (run_result m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v29_eq, (hagree c).1, (hagree c).2.1, (hagree c).2.2.1, (hagree c).2.2.2]

end Cert.Proof.Parts

end
-- ==== Proof.lean ====
/-
  The certificate of a multi-head attention layer computed by three kernels against its plain reference.

  Both programs take activations x [2, 2048, 1024], a fused query/key/value weight [3072, 1024], an output weight
  [1024, 1024] and a bias [1024], and compute, over the extended reals,

    qkv = x · w_qkvᵀ,   split into queries, keys and values per head (16 heads of 64 features),
    p   = softmax over the keys of (q · ⅛) · kᵀ   (maximum subtracted, exponentials, divided by their sum),
    out = (p · v, heads side by side) · w_projᵀ + b.

  The kernel program does the two projections as tiled matrix products on [4096, ...] matrices (batch and position merged
  into one row index) and the attention per (batch, head) in query tiles of 256 rows against all 2048 keys at once; the
  reference does each step on whole arrays.  Over the extended reals a change of float format is the identity and a sum is
  a sum whatever its tiling, and the two programs apply the same operations with the same constants (one eighth,
  minus infinity, zero) to the same entries; no law that needs finiteness is used, so the precondition is never opened.

  The three frames are the generated ones (the reference's is its generated run with the result dropped); the kernel's
  idealization rewrote no operation, so that conjunct is trivial; the equality of the results is assembled in
  Proof/Algebraic.lean from: the kernel program's run with its result named (Proof/KernelRun.lean), what each region
  leaves as a function of what it found (Proof/Region0.lean, Region1.lean, Region2.lean), the buffers between the regions
  (Proof/KernelHost.lean), and the stage-by-stage comparison with the reference (Proof/KernelValue.lean,
  Proof/RefAttention.lean) over the functions of Proof/Spec.lean.
-/
import proofs.«149181_j24799141167461_2_alg».proof.Defs
import proofs.«149181_j24799141167461_2_alg».proof.Proof.Gen.Kernel
import proofs.«149181_j24799141167461_2_alg».proof.Proof.Gen.Kernel.Skeleton
import proofs.«149181_j24799141167461_2_alg».proof.Proof.Gen.Kernel.Launch
import proofs.«149181_j24799141167461_2_alg».proof.Proof.Gen.Kernel.Points
import proofs.«149181_j24799141167461_2_alg».proof.Proof.Gen.Kernel.Frame
import proofs.«149181_j24799141167461_2_alg».proof.Proof.Gen.KernelIdeal
import proofs.«149181_j24799141167461_2_alg».proof.Proof.Gen.KernelIdeal.Skeleton
import proofs.«149181_j24799141167461_2_alg».proof.Proof.Gen.KernelIdeal.Launch
import proofs.«149181_j24799141167461_2_alg».proof.Proof.Gen.KernelIdeal.Points
import proofs.«149181_j24799141167461_2_alg».proof.Proof.Gen.KernelIdeal.Frame
import proofs.«149181_j24799141167461_2_alg».proof.Proof.Gen.ReferenceIdeal
import proofs.«149181_j24799141167461_2_alg».proof.Proof.Gen.Pre_finite_inputs
import proofs.«149181_j24799141167461_2_alg».proof.Proof.Gen.ReferenceIdeal.Run
import proofs.«149181_j24799141167461_2_alg».proof.Proof.Gen.ReferenceIdeal.Read
import proofs.«149181_j24799141167461_2_alg».proof.Proof.Region0
import proofs.«149181_j24799141167461_2_alg».proof.Proof.Region1
import proofs.«149181_j24799141167461_2_alg».proof.Proof.Region2
import proofs.«149181_j24799141167461_2_alg».proof.Proof.Algebraic
import Idealize.ShloMosaic.Adequacy
import Idealize.ShloMosaic.Init

noncomputable section

namespace Cert.Proof

open Idealize.ShloMosaic Idealize.SL.Sem Cert.Kernel

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two idealized programs end with equal results. -/
theorem algebraic : Cert.algebraic_KernelIdeal_ReferenceIdeal :=
  Cert.Proof.Parts.algebraic_of
    (fun V c r o => Cert.KernelIdeal.Bridge.arr0 V c r o)
    (fun V c b h n d => Cert.KernelIdeal.Bridge.arr1 V c b h n d)
    (fun V c r o => Cert.KernelIdeal.Bridge.arr2 V c r o)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
